-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S500x128 : Shape := ⟨2, ![500, 128]⟩
abbrev S2x131072 : Shape := ⟨2, ![2, 131072]⟩
abbrev S131072 : Shape := ⟨1, ![131072]⟩
abbrev S16x2 : Shape := ⟨2, ![16, 2]⟩
abbrev S16 : Shape := ⟨1, ![16]⟩
abbrev S2048x128 : Shape := ⟨2, ![2048, 128]⟩
abbrev S128 : Shape := ⟨1, ![128]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500x128 : S_.BroadcastsInDim S500x128 (![] : Fin 0 → Fin S500x128.rank)
  reducesTo_S500x128_S_d0_1 : S500x128.ReducesTo [0, 1] S_
  bcast_S_S16x2 : S_.BroadcastsInDim S16x2 (![] : Fin 0 → Fin S16x2.rank)
  reducesTo_S16x2_S_d0_1 : S16x2.ReducesTo [0, 1] S_
  bcast_S_S16 : S_.BroadcastsInDim S16 (![] : Fin 0 → Fin S16.rank)
  reducesTo_S16_S_d0 : S16.ReducesTo [0] S_
  bcast_S_S2048x128 : S_.BroadcastsInDim S2048x128 (![] : Fin 0 → Fin S2048x128.rank)
  reducesTo_S2048x128_S_d0_1 : S2048x128.ReducesTo [0, 1] S_
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_

variable [Facts]

def fn_part4 {F : FTy → Type} [FloatOps F] (main_arg11 : FVec F S1 .f32) (main_v63 : IVec S_ 1) (main_v67 : IVec S_ 1) : IVec S_ 1 :=
  let main_v68 : IVec S_ 1 := andi main_v63 main_v67
  let main_cst_26 : FVec F S_ .f32 := constant S_ .f32 0x00000000#32
  let main_v69 : FVec F S1 .f32 := broadcastInDim S1 ![] bcast_S_S1 main_cst_26
  let main_v70 : IVec S1 1 := cmpf .oge main_arg11 main_v69
  let main_c_27 : IVec S_ 1 := constantI S_ 1 1#1
  let main_v71 : IVec S_ 1 := (fun x v => Host.reduce IntOp.andi x v reducesTo_S1_S_d0 h_S_) main_v70 main_c_27
  let main_v72 : IVec S_ 1 := andi main_v68 main_v71
  main_v72

def fn_part3 {F : FTy → Type} [FloatOps F] (main_arg11 : FVec F S1 .f32) (main_arg13 : FVec F S128 .f32) (main_arg14 : FVec F S128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg11 main_v63 main_v67

def fn_part2 {F : FTy → Type} [FloatOps F] (main_arg9 : FVec F S1 .f32) (main_arg10 : FVec F S1 .f32) (main_arg11 : FVec F S1 .f32) (main_arg12 : FVec F S128 .f32) (main_arg13 : FVec F S128 .f32) (main_arg14 : FVec F S128 .f32) (main_arg15 : FVec F S128 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg11 main_arg13 main_arg14 main_arg15 main_v48 main_v49 main_v50

def fn_part1 {F : FTy → Type} [FloatOps F] (main_arg6 : FVec F S2048x128 .f32) (main_arg7 : FVec F S128 .f32) (main_arg8 : FVec F S1 .f32) (main_arg9 : FVec F S1 .f32) (main_arg10 : FVec F S1 .f32) (main_arg11 : FVec F S1 .f32) (main_arg12 : FVec F S128 .f32) (main_arg13 : FVec F S128 .f32) (main_arg14 : FVec F S128 .f32) (main_arg15 : FVec F S128 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S2048x128 .f32 := Host.absf main_arg6
  let main_cst_6 : FVec F S_ .f32 := constant S_ .f32 0x7F800000#32
  let main_v20 : FVec F S2048x128 .f32 := broadcastInDim S2048x128 ![] bcast_S_S2048x128 main_cst_6
  let main_v21 : IVec S2048x128 1 := cmpf .olt main_v19 main_v20
  let main_c_7 : IVec S_ 1 := constantI S_ 1 1#1
  let main_v22 : IVec S_ 1 := (fun x v => Host.reduce IntOp.andi x v reducesTo_S2048x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x128 .f32) (main_arg1 : FVec F S500x128 .f32) (main_arg2 : IVec S2x131072 32) (main_arg3 : IVec S131072 32) (main_arg4 : FVec F S16x2 .f32) (main_arg5 : FVec F S16 .f32) (main_arg6 : FVec F S2048x128 .f32) (main_arg7 : FVec F S128 .f32) (main_arg8 : FVec F S1 .f32) (main_arg9 : FVec F S1 .f32) (main_arg10 : FVec F S1 .f32) (main_arg11 : FVec F S1 .f32) (main_arg12 : FVec F S128 .f32) (main_arg13 : FVec F S128 .f32) (main_arg14 : FVec F S128 .f32) (main_arg15 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500x128 .f32 := Host.absf main_arg1
  let main_cst_0 : FVec F S_ .f32 := constant S_ .f32 0x7F800000#32
  let main_v5 : FVec F S500x128 .f32 := broadcastInDim S500x128 ![] bcast_S_S500x128 main_cst_0
  let main_v6 : IVec S500x128 1 := cmpf .olt main_v4 main_v5
  let main_c_1 : IVec S_ 1 := constantI S_ 1 1#1
  let main_v7 : IVec S_ 1 := (fun x v => Host.reduce IntOp.andi x v reducesTo_S500x128_S_d0_1 h_S_) main_v6 main_c_1
  let main_v8 : IVec S_ 1 := andi main_v3 main_v7
  let main_v9 : FVec F S16x2 .f32 := Host.absf main_arg4
  let main_cst_2 : FVec F S_ .f32 := constant S_ .f32 0x7F800000#32
  let main_v10 : FVec F S16x2 .f32 := broadcastInDim S16x2 ![] bcast_S_S16x2 main_cst_2
  let main_v11 : IVec S16x2 1 := cmpf .olt main_v9 main_v10
  let main_c_3 : IVec S_ 1 := constantI S_ 1 1#1
  let main_v12 : IVec S_ 1 := (fun x v => Host.reduce IntOp.andi x v reducesTo_S16x2_S_d0_1 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x128 : Shape := ⟨2, ![50000, 128]⟩
abbrev S500x128 : Shape := ⟨2, ![500, 128]⟩
abbrev S2x131072 : Shape := ⟨2, ![2, 131072]⟩
abbrev S131072 : Shape := ⟨1, ![131072]⟩
abbrev S16x2 : Shape := ⟨2, ![16, 2]⟩
abbrev S16 : Shape := ⟨1, ![16]⟩
abbrev S2048x128 : Shape := ⟨2, ![2048, 128]⟩
abbrev S128 : Shape := ⟨1, ![128]⟩
abbrev S1 : Shape := ⟨1, ![1]⟩
abbrev S1x131072 : Shape := ⟨2, ![1, 131072]⟩
abbrev S_ : Shape := ⟨0, ![]⟩
abbrev S131072x1 : Shape := ⟨2, ![131072, 1]⟩
abbrev S131072x128 : Shape := ⟨2, ![131072, 128]⟩
abbrev S2048x1 : Shape := ⟨2, ![2048, 1]⟩
abbrev S1x1 : Shape := ⟨2, ![1, 1]⟩
abbrev S2048x2048 : Shape := ⟨2, ![2048, 2048]⟩
abbrev S1x128 : Shape := ⟨2, ![1, 128]⟩
abbrev S2048 : Shape := ⟨1, ![2048]⟩

abbrev nBuf : Space → Nat
  | .hbm => 58
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S500x128, .f32⟩
  | .hbm, ⟨2, _⟩ => ⟨S2x131072, .i32⟩
  | .hbm, ⟨3, _⟩ => ⟨S131072, .i32⟩
  | .hbm, ⟨4, _⟩ => ⟨S16x2, .f32⟩
  | .hbm, ⟨5, _⟩ => ⟨S16, .f32⟩
  | .hbm, ⟨6, _⟩ => ⟨S2048x128, .f32⟩
  | .hbm, ⟨7, _⟩ => ⟨S128, .f32⟩
  | .hbm, ⟨8, _⟩ => ⟨S1, .f32⟩
  | .hbm, ⟨9, _⟩ => ⟨S1, .f32⟩
  | .hbm, ⟨10, _⟩ => ⟨S1, .f32⟩
  | .hbm, ⟨11, _⟩ => ⟨S1, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S1x131072, .i32⟩
  | .hbm, ⟨17, _⟩ => ⟨S131072, .i32⟩
  | .hbm, ⟨18, _⟩ => ⟨S1x131072, .i32⟩
  | .hbm, ⟨19, _⟩ => ⟨S131072, .i32⟩
  | .hbm, ⟨20, _⟩ => ⟨S_, .i32⟩
  | .hbm, ⟨21, _⟩ => ⟨S131072, .i32⟩
  | .hbm, ⟨22, _⟩ => ⟨S131072, .i1⟩
  | .hbm, ⟨23, _⟩ => ⟨S_, .i32⟩
  | .hbm, ⟨24, _⟩ => ⟨S131072, .i32⟩
  | .hbm, ⟨25, _⟩ => ⟨S131072, .i32⟩
  | .hbm, ⟨26, _⟩ => ⟨S131072, .i32⟩
  | .hbm, ⟨27, _⟩ => ⟨S131072x1, .i32⟩
  | .hbm, ⟨28, _⟩ => ⟨S131072x128, .f32⟩
  | .hbm, ⟨29, _⟩ => ⟨S_, .i32⟩
  | .hbm, ⟨30, _⟩ => ⟨S131072, .i32⟩
  | .hbm, ⟨31, _⟩ => ⟨S131072, .i1⟩
  | .hbm, ⟨32, _⟩ => ⟨S_, .i32⟩
  | .hbm, ⟨33, _⟩ => ⟨S131072, .i32⟩
  | .hbm, ⟨34, _⟩ => ⟨S131072, .i32⟩
  | .hbm, ⟨35, _⟩ => ⟨S131072, .i32⟩
  | .hbm, ⟨36, _⟩ => ⟨S131072x1, .i32⟩
  | .hbm, ⟨37, _⟩ => ⟨S131072x128, .f32⟩
  | .hbm, ⟨38, _⟩ => ⟨S_, .i32⟩
  | .hbm, ⟨39, _⟩ => ⟨S131072, .i32⟩
  | .hbm, ⟨40, _⟩ => ⟨S131072, .i1⟩
  | .hbm, ⟨41, _⟩ => ⟨S_, .i32⟩
  | .hbm, ⟨42, _⟩ => ⟨S131072, .i32⟩
  | .hbm, ⟨43, _⟩ => ⟨S131072, .i32⟩
  | .hbm, ⟨44, _⟩ => ⟨S131072, .i32⟩
  | .hbm, ⟨45, _⟩ => ⟨S131072x1, .i32⟩
  | .hbm, ⟨46, _⟩ => ⟨S131072x128, .f32⟩
  | .hbm, ⟨47, _⟩ => ⟨S131072x128, .bf16⟩
  | .hbm, ⟨48, _⟩ => ⟨S131072x128, .bf16⟩
  | .hbm, ⟨49, _⟩ => ⟨S2048x128, .bf16⟩
  | .hbm, ⟨50, _⟩ => ⟨S_, .f32⟩
  | .hbm, ⟨51, _⟩ => ⟨S1, .f32⟩
  | .hbm, ⟨52, _⟩ => ⟨S1, .f32⟩
  | .hbm, ⟨53, _⟩ => ⟨S1, .f32⟩
  | .hbm, ⟨54, _⟩ => ⟨S1, .f32⟩
  | .hbm, ⟨55, _⟩ => ⟨S1, .f32⟩
  | .hbm, ⟨56, _⟩ => ⟨S1, .f32⟩
  | .hbm, ⟨57, _⟩ => ⟨S131072x1, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .f32⟩
  | .local _ .vmem, ⟨5, _⟩ => ⟨S2048x128, .f32⟩
  | .local _ .vmem, ⟨6, _⟩ => ⟨S2048x128, .bf16⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S16x2, .f32⟩
  | .local _ .vmem, ⟨13, _⟩ => ⟨S16, .f32⟩
  | .local _ .vmem, ⟨14, _⟩ => ⟨S1, .f32⟩
  | .local _ .vmem, ⟨15, _⟩ => ⟨S1, .f32⟩
  | .local _ .vmem, ⟨16, _⟩ => ⟨S2048x1, .f32⟩
  | .local _ .vmem, ⟨17, _⟩ => ⟨S2048x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2048x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  bitsLt_bf16_f32 : FTy.bits .bf16 < FTy.bits .f32
  bcast_S_S1 : S_.BroadcastsInDim S1 (![] : Fin 0 → Fin S1.rank)
  inb_S1_S1_0 : ∀ a, (![0] : Fin 1 → Nat) a + S1.size a ≤ S1.size a
  h_S1 : 0 < S1.numel
  shapeCasts_S1_S1 : S1.ShapeCasts S1
  inpos_S1_p0 : ∀ a, (![0] : Fin 1 → Nat) a < S1.size a
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S16x2_S16x2_0_0 : ∀ a, (![0, 0] : Fin 2 → Nat) a + S16x2.size a ≤ S16x2.size a
  h_S16x2 : 0 < S16x2.numel
  inb_S16_S16_0 : ∀ a, (![0] : Fin 1 → Nat) a + S16.size a ≤ S16.size a
  h_S16 : 0 < S16.numel
  slices_S16x2_o0_0_S1x1 : S16x2.Slices ![0, 0] S1x1
  inpos_S1x1_p0_0 : ∀ a, (![0, 0] : Fin 2 → Nat) a < S1x1.size a
  slices_S16x2_o0_1_S1x1 : S16x2.Slices ![0, 1] S1x1
  slices_S16_o0_S1 : S16.Slices ![0] S1
  slices_S16x2_o1_0_S1x1 : S16x2.Slices ![1, 0] S1x1
  slices_S16x2_o1_1_S1x1 : S16x2.Slices ![1, 1] S1x1
  slices_S16_o1_S1 : S16.Slices ![1] S1
  slices_S16x2_o2_0_S1x1 : S16x2.Slices ![2, 0] S1x1
  slices_S16x2_o2_1_S1x1 : S16x2.Slices ![2, 1] S1x1
  slices_S16_o2_S1 : S16.Slices ![2] S1
  slices_S16x2_o3_0_S1x1 : S16x2.Slices ![3, 0] S1x1
  slices_S16x2_o3_1_S1x1 : S16x2.Slices ![3, 1] S1x1
  slices_S16_o3_S1 : S16.Slices ![3] S1
  slices_S16x2_o4_0_S1x1 : S16x2.Slices ![4, 0] S1x1
  slices_S16x2_o4_1_S1x1 : S16x2.Slices ![4, 1] S1x1
  slices_S16_o4_S1 : S16.Slices ![4] S1
  slices_S16x2_o5_0_S1x1 : S16x2.Slices ![5, 0] S1x1
  slices_S16x2_o5_1_S1x1 : S16x2.Slices ![5, 1] S1x1
  slices_S16_o5_S1 : S16.Slices ![5] S1
  slices_S16x2_o6_0_S1x1 : S16x2.Slices ![6, 0] S1x1
  slices_S16x2_o6_1_S1x1 : S16x2.Slices ![6, 1] S1x1
  slices_S16_o6_S1 : S16.Slices ![6] S1
  slices_S16x2_o7_0_S1x1 : S16x2.Slices ![7, 0] S1x1
  slices_S16x2_o7_1_S1x1 : S16x2.Slices ![7, 1] S1x1
  slices_S16_o7_S1 : S16.Slices ![7] S1
  slices_S16x2_o8_0_S1x1 : S16x2.Slices ![8, 0] S1x1
  slices_S16x2_o8_1_S1x1 : S16x2.Slices ![8, 1] S1x1
  slices_S16_o8_S1 : S16.Slices ![8] S1
  slices_S16x2_o9_0_S1x1 : S16x2.Slices ![9, 0] S1x1
  slices_S16x2_o9_1_S1x1 : S16x2.Slices ![9, 1] S1x1
  slices_S16_o9_S1 : S16.Slices ![9] S1
  slices_S16x2_o10_0_S1x1 : S16x2.Slices ![10, 0] S1x1
  slices_S16x2_o10_1_S1x1 : S16x2.Slices ![10, 1] S1x1
  slices_S16_o10_S1 : S16.Slices ![10] S1
  slices_S16x2_o11_0_S1x1 : S16x2.Slices ![11, 0] S1x1
  slices_S16x2_o11_1_S1x1 : S16x2.Slices ![11, 1] S1x1
  slices_S16_o11_S1 : S16.Slices ![11] S1
  slices_S16x2_o12_0_S1x1 : S16x2.Slices ![12, 0] S1x1
  slices_S16x2_o12_1_S1x1 : S16x2.Slices ![12, 1] S1x1
  slices_S16_o12_S1 : S16.Slices ![12] S1
  slices_S16x2_o13_0_S1x1 : S16x2.Slices ![13, 0] S1x1
  slices_S16x2_o13_1_S1x1 : S16x2.Slices ![13, 1] S1x1
  slices_S16_o13_S1 : S16.Slices ![13] S1
  slices_S16x2_o14_0_S1x1 : S16x2.Slices ![14, 0] S1x1
  slices_S16x2_o14_1_S1x1 : S16x2.Slices ![14, 1] S1x1
  slices_S16_o14_S1 : S16.Slices ![14] S1
  slices_S16x2_o15_0_S1x1 : S16x2.Slices ![15, 0] S1x1
  slices_S16x2_o15_1_S1x1 : S16x2.Slices ![15, 1] S1x1
  slices_S16_o15_S1 : S16.Slices ![15] S1
  concatenates_S2048x128_S2048x128_S2048x128_S2048x128_S2048x128_S2048x128_S2048x128_S2048x128_S2048x128_S2048x128_S2048x128_S2048x128_S2048x128_S2048x128_S2048x128_S2048x128_S2048x2048_d1 : Shape.Concatenates [S2048x128, S2048x128, S2048x128, S2048x128, S2048x128, S2048x128, S2048x128, S2048x128, S2048x128, S2048x128, S2048x128, S2048x128, S2048x128, S2048x128, S2048x128, S2048x128] S2048x2048 1
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  reduces_S2048x128_S2048 : S2048x128.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  gather_S50000x128_S131072x1_S131072x128_1_0_n_n_0_1_1128_wf : GatherDims.WF S50000x128 S131072x1 S131072x128 [1] [0] [] [0] [] 1 ![1, 128]
  gather_S500x128_S131072x1_S131072x128_1_0_n_n_0_1_1128_wf : GatherDims.WF S500x128 S131072x1 S131072x128 [1] [0] [] [0] [] 1 ![1, 128]
  dot_S2048x2048_S2048x128_S2048x128_1_0_0_1_n_n_wf : DotDims.WF S2048x2048 S2048x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .bf16 = 32 ∨ (Rect.block (s := S131072x128) S2048x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S131072x128.size a
  hwx0_1 : ∀ i : grid0.Coords, EltTy.bits .bf16 = 32 ∨ (Rect.block (s := S131072x128) S2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S131072x128.size a
  hwx0_2 : ∀ i : grid0.Coords, EltTy.bits .f32 = 32 ∨ (Rect.block (s := S131072x128) S2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S2048x128.size a
  hwx0_3 : ∀ i : grid0.Coords, EltTy.bits .bf16 = 32 ∨ (Rect.block (s := S2048x128) S2048x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x2.size a ≤ S16x2.size a
  hwx0_9 : ∀ i : grid0.Coords, EltTy.bits .f32 = 32 ∨ (Rect.block (s := S16x2) S16x2.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S16.size a ≤ S16.size a
  hwx0_10 : ∀ i : grid0.Coords, EltTy.bits .f32 = 32 ∨ (Rect.block (s := S16) S16.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1.size a ≤ S1.size a
  hwx0_11 : ∀ i : grid0.Coords, EltTy.bits .f32 = 32 ∨ (Rect.block (s := S1) S1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1.size a ≤ S1.size a
  hwx0_12 : ∀ i : grid0.Coords, EltTy.bits .f32 = 32 ∨ (Rect.block (s := S1) S1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x1.size a ≤ S131072x1.size a
  hwx0_13 : ∀ i : grid0.Coords, EltTy.bits .f32 = 32 ∨ (Rect.block (s := S131072x1) S2048x1.size (cc0_transform_13 i) (hinb0_13 i)).WholeWords (EltTy.packing .f32)

variable [Facts₀]

def gather_S50000x128_S131072x1_S131072x128_1_0_n_n_0_1_1128 : GatherDims S50000x128 S131072x1 S131072x128 where
  offsetDims := [1]
  collapsedSliceDims := [0]
  operandBatchingDims := []
  startIndicesBatchingDims := []
  startIndexMap := [0]
  indexVectorDim := 1
  sliceSizes := ![1, 128]
  wf := gather_S50000x128_S131072x1_S131072x128_1_0_n_n_0_1_1128_wf
def gather_S500x128_S131072x1_S131072x128_1_0_n_n_0_1_1128 : GatherDims S500x128 S131072x1 S131072x128 where
  offsetDims := [1]
  collapsedSliceDims := [0]
  operandBatchingDims := []
  startIndicesBatchingDims := []
  startIndexMap := [0]
  indexVectorDim := 1
  sliceSizes := ![1, 128]
  wf := gather_S500x128_S131072x1_S131072x128_1_0_n_n_0_1_1128_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf

abbrev win0_0 : Pipeline.Window sig grid0 :=
  Pipeline.Window.ofSpec (Memref.whole main_v25) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S2048x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg12) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg13) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg14) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg15) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg4) S16x2.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg5) S16.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v31) S1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v33) S1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v34) S2048x1.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S50000x128 : Shape := ⟨2, ![50000, 128]⟩
abbrev S500x128 : Shape := ⟨2, ![500, 128]⟩
abbrev S2x131072 : Shape := ⟨2, ![2, 131072]⟩
abbrev S131072 : Shape := ⟨1, ![131072]⟩
abbrev S16x2 : Shape := ⟨2, ![16, 2]⟩
abbrev S16 : Shape := ⟨1, ![16]⟩
abbrev S2048x128 : Shape := ⟨2, ![2048, 128]⟩
abbrev S128 : Shape := ⟨1, ![128]⟩
abbrev S1 : Shape := ⟨1, ![1]⟩
abbrev S1x131072 : Shape := ⟨2, ![1, 131072]⟩
abbrev S_ : Shape := ⟨0, ![]⟩
abbrev S131072x1 : Shape := ⟨2, ![131072, 1]⟩
abbrev S131072x128 : Shape := ⟨2, ![131072, 128]⟩
abbrev S131072x1x128 : Shape := ⟨3, ![131072, 1, 128]⟩
abbrev S16x1 : Shape := ⟨2, ![16, 1]⟩
abbrev S1x16x1 : Shape := ⟨3, ![1, 16, 1]⟩
abbrev S131072x16x128 : Shape := ⟨3, ![131072, 16, 128]⟩
abbrev S131072x2048 : Shape := ⟨2, ![131072, 2048]⟩
abbrev S1x128 : Shape := ⟨2, ![1, 128]⟩

abbrev nBuf : Space → Nat
  | .hbm => 116
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S500x128, .f32⟩
  | .hbm, ⟨2, _⟩ => ⟨S2x131072, .i32⟩
  | .hbm, ⟨3, _⟩ => ⟨S131072, .i32⟩
  | .hbm, ⟨4, _⟩ => ⟨S16x2, .f32⟩
  | .hbm, ⟨5, _⟩ => ⟨S16, .f32⟩
  | .hbm, ⟨6, _⟩ => ⟨S2048x128, .f32⟩
  | .hbm, ⟨7, _⟩ => ⟨S128, .f32⟩
  | .hbm, ⟨8, _⟩ => ⟨S1, .f32⟩
  | .hbm, ⟨9, _⟩ => ⟨S1, .f32⟩
  | .hbm, ⟨10, _⟩ => ⟨S1, .f32⟩
  | .hbm, ⟨11, _⟩ => ⟨S1, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S1x131072, .i32⟩
  | .hbm, ⟨17, _⟩ => ⟨S131072, .i32⟩
  | .hbm, ⟨18, _⟩ => ⟨S1x131072, .i32⟩
  | .hbm, ⟨19, _⟩ => ⟨S131072, .i32⟩
  | .hbm, ⟨20, _⟩ => ⟨S_, .i32⟩
  | .hbm, ⟨21, _⟩ => ⟨S131072, .i32⟩
  | .hbm, ⟨22, _⟩ => ⟨S131072, .i1⟩
  | .hbm, ⟨23, _⟩ => ⟨S_, .i32⟩
  | .hbm, ⟨24, _⟩ => ⟨S131072, .i32⟩
  | .hbm, ⟨25, _⟩ => ⟨S131072, .i32⟩
  | .hbm, ⟨26, _⟩ => ⟨S131072, .i32⟩
  | .hbm, ⟨27, _⟩ => ⟨S131072x1, .i32⟩
  | .hbm, ⟨28, _⟩ => ⟨S131072x128, .f32⟩
  | .hbm, ⟨29, _⟩ => ⟨S_, .i32⟩
  | .hbm, ⟨30, _⟩ => ⟨S131072, .i32⟩
  | .hbm, ⟨31, _⟩ => ⟨S131072, .i1⟩
  | .hbm, ⟨32, _⟩ => ⟨S_, .i32⟩
  | .hbm, ⟨33, _⟩ => ⟨S131072, .i32⟩
  | .hbm, ⟨34, _⟩ => ⟨S131072, .i32⟩
  | .hbm, ⟨35, _⟩ => ⟨S131072, .i32⟩
  | .hbm, ⟨36, _⟩ => ⟨S131072x1, .i32⟩
  | .hbm, ⟨37, _⟩ => ⟨S131072x128, .f32⟩
  | .hbm, ⟨38, _⟩ => ⟨S_, .i32⟩
  | .hbm, ⟨39, _⟩ => ⟨S131072, .i32⟩
  | .hbm, ⟨40, _⟩ => ⟨S131072, .i1⟩
  | .hbm, ⟨41, _⟩ => ⟨S_, .i32⟩
  | .hbm, ⟨42, _⟩ => ⟨S131072, .i32⟩
  | .hbm, ⟨43, _⟩ => ⟨S131072, .i32⟩
  | .hbm, ⟨44, _⟩ => ⟨S131072, .i32⟩
  | .hbm, ⟨45, _⟩ => ⟨S131072x1, .i32⟩
  | .hbm, ⟨46, _⟩ => ⟨S131072x128, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S131072x128, .f32⟩
  | .hbm, ⟨55, _⟩ => ⟨S131072x128, .f32⟩
  | .hbm, ⟨56, _⟩ => ⟨S131072x128, .f32⟩
  | .hbm, ⟨57, _⟩ => ⟨S131072x128, .f32⟩
  | .hbm, ⟨58, _⟩ => ⟨S_, .f32⟩
  | .hbm, ⟨59, _⟩ => ⟨S131072x128, .f32⟩
  | .hbm, ⟨60, _⟩ => ⟨S131072x128, .f32⟩
  | .hbm, ⟨61, _⟩ => ⟨S_, .f32⟩
  | .hbm, ⟨62, _⟩ => ⟨S131072x128, .f32⟩
  | .hbm, ⟨63, _⟩ => ⟨S131072x128, .f32⟩
  | .hbm, ⟨64, _⟩ => ⟨S131072x128, .f32⟩
  | .hbm, ⟨65, _⟩ => ⟨S131072x128, .f32⟩
  | .hbm, ⟨66, _⟩ => ⟨S_, .f32⟩
  | .hbm, ⟨67, _⟩ => ⟨S131072x128, .f32⟩
  | .hbm, ⟨68, _⟩ => ⟨S131072x128, .f32⟩
  | .hbm, ⟨69, _⟩ => ⟨S131072x1x128, .f32⟩
  | .hbm, ⟨70, _⟩ => ⟨S16x1, .f32⟩
  | .hbm, ⟨71, _⟩ => ⟨S16, .f32⟩
  | .hbm, ⟨72, _⟩ => ⟨S1x16x1, .f32⟩
  | .hbm, ⟨73, _⟩ => ⟨S131072x16x128, .f32⟩
  | .hbm, ⟨74, _⟩ => ⟨S131072x16x128, .f32⟩
  | .hbm, ⟨75, _⟩ => ⟨S131072x16x128, .f32⟩
  | .hbm, ⟨76, _⟩ => ⟨S131072x1x128, .f32⟩
  | .hbm, ⟨77, _⟩ => ⟨S16x1, .f32⟩
  | .hbm, ⟨78, _⟩ => ⟨S16, .f32⟩
  | .hbm, ⟨79, _⟩ => ⟨S1x16x1, .f32⟩
  | .hbm, ⟨80, _⟩ => ⟨S131072x16x128, .f32⟩
  | .hbm, ⟨81, _⟩ => ⟨S131072x16x128, .f32⟩
  | .hbm, ⟨82, _⟩ => ⟨S131072x16x128, .f32⟩
  | .hbm, ⟨83, _⟩ => ⟨S131072x16x128, .f32⟩
  | .hbm, ⟨84, _⟩ => ⟨S1x16x1, .f32⟩
  | .hbm, ⟨85, _⟩ => ⟨S131072x16x128, .f32⟩
  | .hbm, ⟨86, _⟩ => ⟨S131072x16x128, .f32⟩
  | .hbm, ⟨87, _⟩ => ⟨S_, .f32⟩
  | .hbm, ⟨88, _⟩ => ⟨S131072x16x128, .f32⟩
  | .hbm, ⟨89, _⟩ => ⟨S131072x16x128, .f32⟩
  | .hbm, ⟨90, _⟩ => ⟨S131072x2048, .f32⟩
  | .hbm, ⟨91, _⟩ => ⟨S131072x128, .f32⟩
  | .hbm, ⟨92, _⟩ => ⟨S1x128, .f32⟩
  | .hbm, ⟨93, _⟩ => ⟨S131072x128, .f32⟩
  | .hbm, ⟨94, _⟩ => ⟨S131072x128, .f32⟩
  | .hbm, ⟨95, _⟩ => ⟨S1x128, .f32⟩
  | .hbm, ⟨96, _⟩ => ⟨S131072x128, .f32⟩
  | .hbm, ⟨97, _⟩ => ⟨S131072x128, .f32⟩
  | .hbm, ⟨98, _⟩ => ⟨S_, .f32⟩
  | .hbm, ⟨99, _⟩ => ⟨S128, .f32⟩
  | .hbm, ⟨100, _⟩ => ⟨S128, .f32⟩
  | .hbm, ⟨101, _⟩ => ⟨S128, .f32⟩
  | .hbm, ⟨102, _⟩ => ⟨S128, .f32⟩
  | .hbm, ⟨103, _⟩ => ⟨S1x128, .f32⟩
  | .hbm, ⟨104, _⟩ => ⟨S131072x128, .f32⟩
  | .hbm, ⟨105, _⟩ => ⟨S131072x128, .f32⟩
  | .hbm, ⟨106, _⟩ => ⟨S1x128, .f32⟩
  | .hbm, ⟨107, _⟩ => ⟨S131072x128, .f32⟩
  | .hbm, ⟨108, _⟩ => ⟨S131072x128, .f32⟩
  | .hbm, ⟨109, _⟩ => ⟨S_, .f32⟩
  | .hbm, ⟨110, _⟩ => ⟨S131072x128, .f32⟩
  | .hbm, ⟨111, _⟩ => ⟨S131072x128, .f32⟩
  | .hbm, ⟨112, _⟩ => ⟨S131072x128, .f32⟩
  | .hbm, ⟨113, _⟩ => ⟨S_, .f32⟩
  | .hbm, ⟨114, _⟩ => ⟨S131072, .f32⟩
  | .hbm, ⟨115, _⟩ => ⟨S131072x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_call0_cst : Ref sig .tc := ⟨.hbm, 87, rfl⟩
abbrev main_call0_v0 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_5 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_call1_cst : Ref sig .tc := ⟨.hbm, 109, rfl⟩
abbrev main_call1_v0 : Ref sig .tc := ⟨.hbm, 110, rfl⟩
abbrev main_v83 : Ref sig .tc := ⟨.hbm, 111, rfl⟩
abbrev main_v84 : Ref sig .tc := ⟨.hbm, 112, rfl⟩
abbrev main_cst_6 : Ref sig .tc := ⟨.hbm, 113, rfl⟩
abbrev main_v85 : Ref sig .tc := ⟨.hbm, 114, rfl⟩
abbrev main_v86 : Ref sig .tc := ⟨.hbm, 115, rfl⟩

abbrev nD : Nat := 1
abbrev τ : Topo := Topo.v7x

variable {F : FTy → Type} [FloatOps F]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  shapeCasts_S1_S_ : S1.ShapeCasts S_
  bcast_S_S131072x128 : S_.BroadcastsInDim S131072x128 (![] : Fin 0 → Fin S131072x128.rank)
  bcast_S131072x128_S131072x1x128_0_2 : S131072x128.BroadcastsInDim S131072x1x128 (![0, 2] : Fin 2 → Fin S131072x1x128.rank)
  slices_S16x2_S16x1_0_0 : S16x2.Slices ![0, 0] S16x1
  shapeCasts_S16x1_S16 : S16x1.ShapeCasts S16
  bcast_S16_S1x16x1_1 : S16.BroadcastsInDim S1x16x1 (![1] : Fin 1 → Fin S1x16x1.rank)
  bcast_S131072x1x128_S131072x16x128_0_1_2 : S131072x1x128.BroadcastsInDim S131072x16x128 (![0, 1, 2] : Fin 3 → Fin S131072x16x128.rank)
  bcast_S1x16x1_S131072x16x128_0_1_2 : S1x16x1.BroadcastsInDim S131072x16x128 (![0, 1, 2] : Fin 3 → Fin S131072x16x128.rank)
  slices_S16x2_S16x1_0_1 : S16x2.Slices ![0, 1] S16x1
  bcast_S_S131072x16x128 : S_.BroadcastsInDim S131072x16x128 (![] : Fin 0 → Fin S131072x16x128.rank)
  shapeCasts_S131072x16x128_S131072x2048 : S131072x16x128.ShapeCasts S131072x2048
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S128 : S_.BroadcastsInDim S128 (![] : Fin 0 → Fin S128.rank)
  reducesTo_S131072x128_S131072_d1 : S131072x128.ReducesTo [1] S131072
  h_S_ : 0 < S_.numel
  gather_S50000x128_S131072x1_S131072x128_1_0_n_n_0_1_1128_wf : GatherDims.WF S50000x128 S131072x1 S131072x128 [1] [0] [] [0] [] 1 ![1, 128]
  gather_S500x128_S131072x1_S131072x128_1_0_n_n_0_1_1128_wf : GatherDims.WF S500x128 S131072x1 S131072x128 [1] [0] [] [0] [] 1 ![1, 128]
  dot_S131072x2048_S2048x128_S131072x128_1_0_0_1_n_n_wf : DotDims.WF S131072x2048 S2048x128 S131072x128 [1] [0] [0] [1] [] []

variable [Facts₀]

def gather_S50000x128_S131072x1_S131072x128_1_0_n_n_0_1_1128 : GatherDims S50000x128 S131072x1 S131072x128 where
  offsetDims := [1]
  collapsedSliceDims := [0]
  operandBatchingDims := []
  startIndicesBatchingDims := []
  startIndexMap := [0]
  indexVectorDim := 1
  sliceSizes := ![1, 128]
  wf := gather_S50000x128_S131072x1_S131072x128_1_0_n_n_0_1_1128_wf
def gather_S500x128_S131072x1_S131072x128_1_0_n_n_0_1_1128 : GatherDims S500x128 S131072x1 S131072x128 where
  offsetDims := [1]
  collapsedSliceDims := [0]
  operandBatchingDims := []
  startIndicesBatchingDims := []
  startIndexMap := [0]
  indexVectorDim := 1
  sliceSizes := ![1, 128]
  wf := gather_S500x128_S131072x1_S131072x128_1_0_n_n_0_1_1128_wf
def dot_S131072x2048_S2048x128_S131072x128_1_0_0_1_n_n : DotDims S131072x2048 S2048x128 S131072x128 where
  lhsContracting := [1]
  rhsContracting := [0]
  lhsNonContracting := [0]
  rhsNonContracting := [1]
  lhsBatch := []
  rhsBatch := []
  wf := dot_S131072x2048_S2048x128_S131072x128_1_0_0_1_n_n_wf

class Facts : Prop extends Facts₀ where

variable [Facts]
-- ==== Proof.Spec.lean ====
/-
  What the block computes, written once as a function of its argument arrays.

  For an edge e with subject row x0 = h[row e], relation row x1 = g[type e] and object row cj = h[col e]
  (the three gathered matrices X0, X1, CJ, each [E, 128]), a scalar normalisation n is applied to every entry of
  x0 and x1; sixteen channels c mix the two normalised rows, feat(e, c*128 + j) = max (n x0[j] * w[c,0] + n x1[j] * w[c,1] + cb[c]) 0;
  the 2048 features go through a dense layer, z[j] = sum_k feat(e,k) * fcw[k,j] + fcb[j], a second normalisation
  (z - m3) * (g3 * rsqrt (v3 + eps)) + b3 and a second max with 0; the result is the inner product with cj.

  The two programs differ only in how n is arranged. One multiplies first and adds a precomputed offset,
  x * s + (b - m * s); the other subtracts the mean first, (x - m) * s + b, with the same s = g * rsqrt (v + eps).
  On the extended reals these agree for EVERY x (also x = +-infinity) as soon as s, m and b are real numbers:
  for real x this is distributivity, at an infinite x both sides are that infinity times the sign of s (and b when s = 0).
  s is real when g and v are real and v + eps > 0, which v >= 0 gives since eps > 0.
-/
import Idealize.ShloMosaic.PureOps.Ideal
import Idealize.ShloMosaic.Lib.ValueIdx
import Mathlib.Tactic

noncomputable section

open scoped BigOperators

namespace Cert.ConvE

open Idealize.ShloMosaic Idealize.ShloMosaic.ValueIdx

/-- The positive constant added under both inverse square roots: the binary32 value nearest 1e-5. -/
abbrev eps : EReal := Ideal.ofBits .f32 0x3727C5AC#32
/-- The zero both maxima compare against. -/
abbrev zero : EReal := Ideal.ofBits .f32 0x00000000#32

theorem zero_eq : zero = 0 := by
  simp [zero, Ideal.ofBits, Ideal.ieee]

/-- eps is the real number 10995116 / 2^40. -/
theorem eps_eq : eps = ((10995116 / 2 ^ 40 : ℝ) : EReal) := by
  simp [eps, Ideal.ofBits, Ideal.ieee, -EReal.coe_mul]; norm_num

/-- The scale of a normalisation: gain over the square root of variance plus eps. -/
def scale (g v : EReal) : EReal := g * Ideal.rsqrt (v + eps)

/-- The normalisation with the offset folded: x * s + (b - m * s). -/
def foldedNorm (g b mm v x : EReal) : EReal := x * scale g v + (b - mm * scale g v)

/-- The normalisation as written in the textbook: (x - m) * s + b. -/
def plainNorm (g b mm v x : EReal) : EReal := (x - mm) * scale g v + b

/-- With a real scale, mean and shift the two arrangements agree at every extended real. -/
theorem folded_eq_plain_real (s b mm : ℝ) (x : EReal) :
    x * (s : EReal) + ((b : EReal) - (mm : EReal) * (s : EReal)) = (x - (mm : EReal)) * (s : EReal) + (b : EReal) := by
  have hoff : ((b : EReal) - (mm : EReal) * (s : EReal)) = ((b - mm * s : ℝ) : EReal) := by
    rw [EReal.coe_sub, EReal.coe_mul]
  rw [hoff]
  induction x using EReal.rec with
  | bot =>
    rcases lt_trichotomy s 0 with hs | hs | hs
    · rw [EReal.bot_mul_coe_of_neg hs, EReal.top_add_coe, EReal.bot_sub, EReal.bot_mul_coe_of_neg hs, EReal.top_add_coe]
    · subst hs; simp
    · rw [EReal.bot_mul_coe_of_pos hs, EReal.bot_add, EReal.bot_sub, EReal.bot_mul_coe_of_pos hs, EReal.bot_add]
  | coe r =>
    rw [← EReal.coe_mul, ← EReal.coe_add, ← EReal.coe_sub, ← EReal.coe_mul, ← EReal.coe_add]
    congr 1; ring
  | top =>
    rcases lt_trichotomy s 0 with hs | hs | hs
    · rw [EReal.top_mul_coe_of_neg hs, EReal.bot_add, EReal.top_sub_coe, EReal.top_mul_coe_of_neg hs, EReal.bot_add]
    · subst hs; simp
    · rw [EReal.top_mul_coe_of_pos hs, EReal.top_add_coe, EReal.top_sub_coe, EReal.top_mul_coe_of_pos hs, EReal.top_add_coe]

/-- A real gain over a real non-negative variance gives a real scale. -/
theorem scale_real (g v : ℝ) (hv : 0 ≤ v) : ∃ s : ℝ, scale (g : EReal) (v : EReal) = (s : EReal) := by
  have hpos : (0 : ℝ) < v + 10995116 / 2 ^ 40 := by positivity
  refine ⟨g * (Real.sqrt (v + 10995116 / 2 ^ 40))⁻¹, ?_⟩
  unfold scale
  rw [eps_eq, ← EReal.coe_add, Ideal.rsqrt_coe, if_neg (not_lt.mpr hpos.le), if_neg hpos.ne', ← EReal.coe_mul]

/-- So the two normalisations are one function when gain, shift, mean and variance are real and the variance is non-negative. -/
theorem foldedNorm_eq_plainNorm (g b mm v : ℝ) (hv : 0 ≤ v) :
    foldedNorm (g : EReal) (b : EReal) (mm : EReal) (v : EReal) = plainNorm (g : EReal) (b : EReal) (mm : EReal) (v : EReal) := by
  obtain ⟨s, hs⟩ := scale_real g v hv
  funext x
  unfold foldedNorm plainNorm
  rw [hs]
  exact folded_eq_plain_real s b mm x

/-! ## The result -/

abbrev SEx128 : Shape := ⟨2, ![131072, 128]⟩
abbrev SEx1 : Shape := ⟨2, ![131072, 1]⟩
abbrev SWx2 : Shape := ⟨2, ![16, 2]⟩
abbrev SW : Shape := ⟨1, ![16]⟩
abbrev SKxD : Shape := ⟨2, ![2048, 128]⟩
abbrev SD : Shape := ⟨1, ![128]⟩

/-- The channel a feature column belongs to. -/
def chan (k : Fin 2048) : Fin 16 := ⟨k.val / 128, by have := k.isLt; omega⟩
/-- The lane of the embedding rows a feature column reads. -/
def lane (k : Fin 2048) : Fin 128 := ⟨k.val % 128, by omega⟩

/-- Feature k of one edge, from its two embedding rows r0 and r1: channel chan k of the two normalised rows at lane
    lane k, through max with zero. -/
def feat (n : EReal → EReal) (r0 r1 : Fin 128 → EReal) (w : SWx2.Idx → EReal) (cb : SW.Idx → EReal) (k : Fin 2048) : EReal :=
  max (n (r0 (lane k)) * w (ix2 (chan k) 0) + n (r1 (lane k)) * w (ix2 (chan k) 1) + cb (ix1 (chan k))) zero

/-- The dense layer, second normalisation and max of one edge at output lane j. -/
def hidden (n : EReal → EReal) (r0 r1 : Fin 128 → EReal) (w : SWx2.Idx → EReal) (cb : SW.Idx → EReal)
    (fcw : SKxD.Idx → EReal) (fcb g3 b3 m3 v3 : SD.Idx → EReal) (j : Fin 128) : EReal :=
  max (((∑ k : Fin 2048, feat n r0 r1 w cb k * fcw (ix2 k j)) + fcb (ix1 j) - m3 (ix1 j))
        * (g3 (ix1 j) * Ideal.rsqrt (v3 (ix1 j) + eps)) + b3 (ix1 j)) zero

/-- The score of one edge: its hidden row against its object row rc. -/
def score (n : EReal → EReal) (r0 r1 rc : Fin 128 → EReal) (w : SWx2.Idx → EReal) (cb : SW.Idx → EReal)
    (fcw : SKxD.Idx → EReal) (fcb g3 b3 m3 v3 : SD.Idx → EReal) : EReal :=
  ∑ j : Fin 128, hidden n r0 r1 w cb fcw fcb g3 b3 m3 v3 j * rc j

/-- The whole result, a column of scores: edge e reads row e of the three gathered matrices. -/
def out (n : EReal → EReal) (X0 X1 CJ : SEx128.Idx → EReal) (w : SWx2.Idx → EReal) (cb : SW.Idx → EReal)
    (fcw : SKxD.Idx → EReal) (fcb g3 b3 m3 v3 : SD.Idx → EReal) : SEx1.Idx → EReal :=
  fun i => score n (fun l => X0 (ix2 (i 0) l)) (fun l => X1 (ix2 (i 0) l)) (fun l => CJ (ix2 (i 0) l)) w cb fcw fcb g3 b3 m3 v3

end Cert.ConvE

end
-- ==== Proof.PreFacts.lean ====
/-
  The precondition read at the four scalars of the first normalisation. The precondition is one conjunction: for each
  of fourteen float arrays, every element x has |x| < +∞; and last, every element of the fourth scalar array is ≥ 0.
  Over the extended reals |x| is max x (-x), so |x| < +∞ says x is neither -∞ nor +∞: x is a real number. Each of the
  four arrays here has one element, so the four facts are about that element; the conjuncts about the other arrays are
  dropped. The chain is printed in five definitions, each ending in a call of the next: one lemma per definition reads
  its conjuncts, from the last back to the first.
-/
import proofs.«161276_j62758062129643_2_alg».proof.Pre_finite_inputs
import Idealize.ShloMosaic.Lib.ReduceAll
import Idealize.ShloMosaic.Lib.ValueIdx
import Idealize.ShloMosaic.PureOps.Ideal.Laws
import Mathlib.Tactic

noncomputable section

namespace Cert.ConvE.Pre.PreFacts

open Idealize.ShloMosaic Idealize.ShloMosaic.ValueIdx Cert.Pre_finite_inputs Cert.Pre_finite_inputs.Facts

/-- The scalar shape has exactly one index. -/
theorem subsingleton_scalar_idx : Subsingleton S_.Idx := ⟨fun a b => funext fun d => d.elim0⟩

/-- A one-bit word made from a Boolean is 1 exactly when the Boolean is true. -/
theorem ofBool_eq_one (b : Bool) : BitVec.ofBool b = 1#1 ↔ b = true := by cases b <;> decide

/-- The word 0x7F800000 denotes +∞. -/
theorem ofBits_inf_f32 : Ideal.ofBits .f32 0x7F800000#32 = ⊤ := by simp [Ideal.ofBits, Ideal.ieee]

/-- An extended real whose absolute value max x (-x) is below +∞ is a real number: at -∞ and at +∞ the maximum is +∞. -/
theorem real_of_abs_lt_top (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

/-- A comparison x ≥ 0 whose result is 1 says 0 ≤ x. -/
theorem nonneg_of_oge_zero (x : EReal) (h : Ideal.cmp .oge x 0 = 1#1) : 0 ≤ x := by
  simpa [Ideal.cmp, ofBool_eq_one] using h

/-- "Every element x of a one-element array has |x| < +∞", as the conjunction over the array's indices started from 1:
    when it is 1, the element is a real number. -/
theorem real_of_all_lt_inf [Facts] (x : FVec Ideal S1 .f32) (j : S_.Idx)
    (e : Host.reduce IntOp.andi
          (cmpf .olt (Host.absf x) (broadcastInDim S1 ![] bcast_S_S1 (constant (F := Ideal) S_ .f32 0x7F800000#32)))
          (constantI S_ 1 1#1) reducesTo_S1_S_d0 h_S_ j = 1#1) :
    ∃ r : ℝ, x (ix1 0) = (r : EReal) := by
  haveI : Subsingleton S_.Idx := subsingleton_scalar_idx
  have h := Host.reduce_andi_all _ _ _ _ j e (ix1 0)
  have h' : Ideal.cmp .olt (max (x (ix1 0)) (-(x (ix1 0)))) (Ideal.ofBits .f32 0x7F800000#32) = 1#1 := h
  rw [ofBits_inf_f32] at h'
  exact real_of_abs_lt_top _ h'

/-- "Every element x of a one-element array has x ≥ 0", likewise: when it is 1, the element is non-negative. -/
theorem nonneg_of_all_ge_zero [Facts] (x : FVec Ideal S1 .f32) (j : S_.Idx)
    (e : Host.reduce IntOp.andi
          (cmpf .oge x (broadcastInDim S1 ![] bcast_S_S1 (constant (F := Ideal) S_ .f32 0x00000000#32)))
          (constantI S_ 1 1#1) reducesTo_S1_S_d0 h_S_ j = 1#1) :
    0 ≤ x (ix1 0) := by
  haveI : Subsingleton S_.Idx := subsingleton_scalar_idx
  have h := Host.reduce_andi_all _ _ _ _ j e (ix1 0)
  have h' : Ideal.cmp .oge (x (ix1 0)) (Ideal.ofBits .f32 0x00000000#32) = 1#1 := h
  rw [Ideal.ofBits_zero_f32] at h'
  exact nonneg_of_oge_zero _ h'

/-- The last definition of the chain: the conjunction it was handed is 1, and the fourth scalar is non-negative. -/
theorem part4_dec [Facts] (a11 : FVec Ideal S1 .f32) (v63 v67 : IVec S_ 1) (j : S_.Idx)
    (h : fn_part4 (F := Ideal) a11 v63 v67 j = 1#1) : v63 j = 1#1 ∧ 0 ≤ a11 (ix1 0) := by
  unfold fn_part4 at h
  obtain ⟨h1, h2⟩ := IntOp.andi_eq_one.1 h
  obtain ⟨h3, -⟩ := IntOp.andi_eq_one.1 h1
  exact ⟨h3, nonneg_of_all_ge_zero a11 j h2⟩

/-- The fourth definition: the conjunction it was handed is 1, and the fourth scalar is non-negative. -/
theorem part3_dec [Facts] (a11 : FVec Ideal S1 .f32) (a13 a14 a15 : FVec Ideal S128 .f32) (v48 : IVec S_ 1)
    (v49 v50 : FVec Ideal S128 .f32) (j : S_.Idx)
    (h : fn_part3 (F := Ideal) a11 a13 a14 a15 v48 v49 v50 j = 1#1) : v48 j = 1#1 ∧ 0 ≤ a11 (ix1 0) := by
  unfold fn_part3 at h
  obtain ⟨h63, hv⟩ := part4_dec _ _ _ j h
  obtain ⟨h58, -⟩ := IntOp.andi_eq_one.1 h63
  obtain ⟨h53, -⟩ := IntOp.andi_eq_one.1 h58
  obtain ⟨h48, -⟩ := IntOp.andi_eq_one.1 h53
  exact ⟨h48, hv⟩

/-- The third definition: the conjunction it was handed is 1; the second, third and fourth scalars are real numbers and
    the fourth is non-negative. -/
theorem part2_dec [Facts] (a9 a10 a11 : FVec Ideal S1 .f32) (a12 a13 a14 a15 : FVec Ideal S128 .f32) (v33 : IVec S_ 1) (j : S_.Idx)
    (h : fn_part2 (F := Ideal) a9 a10 a11 a12 a13 a14 a15 v33 j = 1#1) :
    v33 j = 1#1 ∧ (∃ r : ℝ, a9 (ix1 0) = (r : EReal)) ∧ (∃ r : ℝ, a10 (ix1 0) = (r : EReal))
      ∧ (∃ r : ℝ, a11 (ix1 0) = (r : EReal)) ∧ 0 ≤ a11 (ix1 0) := by
  unfold fn_part2 at h
  obtain ⟨h48, hv⟩ := part3_dec _ _ _ _ _ _ _ j h
  obtain ⟨h43, h47⟩ := IntOp.andi_eq_one.1 h48
  obtain ⟨h38, h42⟩ := IntOp.andi_eq_one.1 h43
  obtain ⟨h33, h37⟩ := IntOp.andi_eq_one.1 h38
  exact ⟨h33, real_of_all_lt_inf a9 j h37, real_of_all_lt_inf a10 j h42, real_of_all_lt_inf a11 j h47, hv⟩

/-- The second definition: all four scalars are real numbers and the fourth is non-negative. -/
theorem part1_dec [Facts] (a6 : FVec Ideal S2048x128 .f32) (a7 : FVec Ideal S128 .f32) (a8 a9 a10 a11 : FVec Ideal S1 .f32)
    (a12 a13 a14 a15 : FVec Ideal S128 .f32) (v13 : IVec S_ 1) (v16 : IVec S16 1) (j : S_.Idx)
    (h : fn_part1 (F := Ideal) a6 a7 a8 a9 a10 a11 a12 a13 a14 a15 v13 v16 j = 1#1) :
    (∃ r : ℝ, a8 (ix1 0) = (r : EReal)) ∧ (∃ r : ℝ, a9 (ix1 0) = (r : EReal)) ∧ (∃ r : ℝ, a10 (ix1 0) = (r : EReal))
      ∧ (∃ r : ℝ, a11 (ix1 0) = (r : EReal)) ∧ 0 ≤ a11 (ix1 0) := by
  unfold fn_part1 at h
  obtain ⟨h33, h9, h10, h11, hv⟩ := part2_dec _ _ _ _ _ _ _ _ j h
  obtain ⟨-, h32⟩ := IntOp.andi_eq_one.1 h33
  exact ⟨real_of_all_lt_inf a8 j h32, h9, h10, h11, hv⟩

end Cert.ConvE.Pre.PreFacts

namespace Cert.ConvE.Pre

open Idealize.ShloMosaic

/-- Under the precondition the scale, the shift, the mean and the variance of the first normalisation are real numbers,
    and the variance is non-negative. -/
theorem bn1_real [Cert.Pre_finite_inputs.Facts]
    (a0 : FVec Ideal Cert.Pre_finite_inputs.S50000x128 .f32) (a1 : FVec Ideal Cert.Pre_finite_inputs.S500x128 .f32)
    (a2 : IVec Cert.Pre_finite_inputs.S2x131072 32) (a3 : IVec Cert.Pre_finite_inputs.S131072 32)
    (a4 : FVec Ideal Cert.Pre_finite_inputs.S16x2 .f32) (a5 : FVec Ideal Cert.Pre_finite_inputs.S16 .f32)
    (a6 : FVec Ideal Cert.Pre_finite_inputs.S2048x128 .f32) (a7 : FVec Ideal Cert.Pre_finite_inputs.S128 .f32)
    (a8 a9 a10 a11 : FVec Ideal Cert.Pre_finite_inputs.S1 .f32)
    (a12 a13 a14 a15 : FVec Ideal Cert.Pre_finite_inputs.S128 .f32)
    (h : Cert.Pre_finite_inputs.fn (F := Ideal) a0 a1 a2 a3 a4 a5 a6 a7 a8 a9 a10 a11 a12 a13 a14 a15 = fun _ => 1#1) :
    ∃ g b mm v : ℝ, a8 (ValueIdx.ix1 0) = (g : EReal) ∧ a9 (ValueIdx.ix1 0) = (b : EReal) ∧ a10 (ValueIdx.ix1 0) = (mm : EReal)
      ∧ a11 (ValueIdx.ix1 0) = (v : EReal) ∧ 0 ≤ v := by
  have e := congrFun h ValueIdx.ix0
  unfold Cert.Pre_finite_inputs.fn at e
  obtain ⟨⟨g, hg⟩, ⟨b, hb⟩, ⟨mm, hm⟩, ⟨v, hv⟩, h0⟩ := PreFacts.part1_dec _ _ _ _ _ _ _ _ _ _ _ _ ValueIdx.ix0 e
  refine ⟨g, b, mm, v, hg, hb, hm, hv, ?_⟩
  rw [hv] at h0
  exact EReal.coe_nonneg.1 h0

end Cert.ConvE.Pre

end
-- ==== Proof.RefValue.lean ====
/-
  The reference program computes the specification.

  Reading the reference one operation at a time: the three gathered matrices X0 = h[row], X1 = g[type], CJ = h[col]
  (each [E, 128]) are left closed. Every entry of X0 and X1 goes through the normalisation (x - m) * (g * rsqrt (v + eps)) + b
  whose four parameters are one-element arrays, read at their only index. Sixteen channels mix the two normalised rows and
  pass through a maximum with zero; the [E, 16, 128] result is reshaped to [E, 2048], so column k holds channel k / 128 at
  lane k % 128. A contraction over the 2048 columns with the dense weights, the bias, the second normalisation (per output
  lane) and the second maximum give the hidden matrix; its row e against row e of CJ, summed over the 128 lanes starting
  from the zero word, is the score, and the last step only turns the vector of scores into a column.

  The proof follows that order: the scalar reads, the two normalised matrices at an index, the feature matrix at (e, k),
  the hidden matrix at (e, j), and the score.
-/
import proofs.«161276_j62758062129643_2_alg».proof.Proof.Gen.ReferenceIdeal.Read
import proofs.«161276_j62758062129643_2_alg».proof.Proof.Spec
import Idealize.ShloMosaic.Lib.ValueIdx
import Idealize.ShloMosaic.Lib.ValueLayout
import Idealize.ShloMosaic.Lib.Pipeline.Value
import Idealize.ShloMosaic.PureOps.Ideal.Laws
import Mathlib.Tactic

noncomputable section

open scoped BigOperators

namespace Cert.ConvE.Ref

open Cert.ReferenceIdeal Cert.ReferenceIdeal.Gen Cert.ReferenceIdeal.Read Idealize.ShloMosaic Idealize.ShloMosaic.ValueIdx

/-- Reading a one-element array reshaped to rank 0: its only element. -/
theorem scalar_read {α : Type} (x : S1.Idx → α) (j : S_.Idx) :
    shapeCast S_ x shapeCasts_S1_S_ j = x (ix1 0) := by
  refine shapeCast_apply x shapeCasts_S1_S_ j (ix1 0) ?_
  rw [Shape.rowMajor_val_one]
  have hn : S_.numel = 1 := by decide
  have h : (S_.rowMajor j).val < 1 := lt_of_lt_of_eq (S_.rowMajor j).isLt hn
  show (0 : Nat) = _
  omega

/-- The first normalised matrix at an index: the textbook normalisation of the subject row's entry. -/
theorem norm0_apply (x0 : (⟨S50000x128, .f32⟩ : BufTy).Contents (Elt Ideal)) (x2 : (⟨S2x131072, .i32⟩ : BufTy).Contents (Elt Ideal))
    (x8 x9 x10 x11 : (⟨S1, .f32⟩ : BufTy).Contents (Elt Ideal)) (i : S131072x128.Idx) :
    val_main_v37 (F := Ideal) x0 x2 x8 x9 x10 x11 i
      = plainNorm (x8 (ix1 0)) (x9 (ix1 0)) (x10 (ix1 0)) (x11 (ix1 0)) (val_main_v10 (F := Ideal) x0 x2 i) := by
  rw [val_main_v37_apply, val_main_v34_apply, val_main_v32_apply, val_main_v31_apply, val_main_v33_apply, val_main_v29_apply,
    val_main_v28_apply, val_main_v27_apply, val_main_cst_apply, val_main_v36_apply]
  unfold val_main_v25 val_main_v26 val_main_v30 val_main_v35
  rw [scalar_read, scalar_read, scalar_read, scalar_read]
  simp only [Ideal.addf_def, Ideal.subf_def, Ideal.mulf_def, Ideal.hostUnary_rsqrt_def, Ideal.ofBits_def]
  rfl

/-- The second normalised matrix at an index: the same normalisation of the relation row's entry. -/
theorem norm1_apply (x1 : (⟨S500x128, .f32⟩ : BufTy).Contents (Elt Ideal)) (x3 : (⟨S131072, .i32⟩ : BufTy).Contents (Elt Ideal))
    (x8 x9 x10 x11 : (⟨S1, .f32⟩ : BufTy).Contents (Elt Ideal)) (i : S131072x128.Idx) :
    val_main_v45 (F := Ideal) x1 x3 x8 x9 x10 x11 i
      = plainNorm (x8 (ix1 0)) (x9 (ix1 0)) (x10 (ix1 0)) (x11 (ix1 0)) (val_main_v17 (F := Ideal) x1 x3 i) := by
  rw [val_main_v45_apply, val_main_v42_apply, val_main_v40_apply, val_main_v39_apply, val_main_v41_apply, val_main_v29_apply,
    val_main_v28_apply, val_main_v27_apply, val_main_cst_apply, val_main_v44_apply]
  unfold val_main_v25 val_main_v26 val_main_v38 val_main_v43
  rw [scalar_read, scalar_read, scalar_read, scalar_read]
  simp only [Ideal.addf_def, Ideal.subf_def, Ideal.mulf_def, Ideal.hostUnary_rsqrt_def, Ideal.ofBits_def]
  rfl

/-- A column k of the reshaped feature matrix belongs to channel k / 128 and lane k % 128. -/
theorem feature_index (e : Fin 131072) (k : Fin 2048) :
    idx_main_v65 (ix2 e k) = ix3 e (chan k) (lane k) := funext fun a => Fin.ext (by
  have he := e.isLt
  have hk := k.isLt
  match a with
  | ⟨0, _⟩ => show (e.val * 2048 + k.val) / 2048 = e.val; omega
  | ⟨1, _⟩ => show (e.val * 2048 + k.val) / 128 % 16 = k.val / 128; omega
  | ⟨2, _⟩ => show (e.val * 2048 + k.val) % 128 = k.val % 128; omega)

/-- The feature matrix at edge e and column k: the specification's feature of that edge's two gathered rows. -/
theorem feat_apply (x0 : (⟨S50000x128, .f32⟩ : BufTy).Contents (Elt Ideal)) (x1 : (⟨S500x128, .f32⟩ : BufTy).Contents (Elt Ideal))
    (x2 : (⟨S2x131072, .i32⟩ : BufTy).Contents (Elt Ideal)) (x3 : (⟨S131072, .i32⟩ : BufTy).Contents (Elt Ideal))
    (x4 : (⟨S16x2, .f32⟩ : BufTy).Contents (Elt Ideal)) (x5 : (⟨S16, .f32⟩ : BufTy).Contents (Elt Ideal))
    (x8 x9 x10 x11 : (⟨S1, .f32⟩ : BufTy).Contents (Elt Ideal)) (e : Fin 131072) (k : Fin 2048) :
    val_main_v65 (F := Ideal) x0 x1 x2 x3 x4 x5 x8 x9 x10 x11 (ix2 e k)
      = feat (plainNorm (x8 (ix1 0)) (x9 (ix1 0)) (x10 (ix1 0)) (x11 (ix1 0)))
          (fun l => val_main_v10 (F := Ideal) x0 x2 (ix2 e l)) (fun l => val_main_v17 (F := Ideal) x1 x3 (ix2 e l)) x4 x5 k := by
  have hrow0 : ∀ (c : Fin 16) (l : Fin 128), idx_main_v46 (idx_main_v50 (ix3 e c l)) = ix2 e l :=
    fun c l => funext fun a => Fin.ext (by match a with | ⟨0, _⟩ => rfl | ⟨1, _⟩ => rfl)
  have hrow1 : ∀ (c : Fin 16) (l : Fin 128), idx_main_v53 (idx_main_v57 (ix3 e c l)) = ix2 e l :=
    fun c l => funext fun a => Fin.ext (by match a with | ⟨0, _⟩ => rfl | ⟨1, _⟩ => rfl)
  have hw0 : ∀ (c : Fin 16) (l : Fin 128), idx_main_v47 (idx_main_v48 (idx_main_v49 (idx_main_v51 (ix3 e c l)))) = ix2 c 0 :=
    fun c l => funext fun a => Fin.ext (by
      match a with
      | ⟨0, _⟩ => show c.val / 1 = c.val; omega
      | ⟨1, _⟩ => rfl)
  have hw1 : ∀ (c : Fin 16) (l : Fin 128), idx_main_v54 (idx_main_v55 (idx_main_v56 (idx_main_v58 (ix3 e c l)))) = ix2 c 1 :=
    fun c l => funext fun a => Fin.ext (by
      match a with
      | ⟨0, _⟩ => show c.val / 1 = c.val; omega
      | ⟨1, _⟩ => rfl)
  have hb : ∀ (c : Fin 16) (l : Fin 128), idx_main_v61 (idx_main_v62 (ix3 e c l)) = ix1 c :=
    fun c l => funext fun a => Fin.ext (by match a with | ⟨0, _⟩ => rfl)
  rw [val_main_v65_apply, feature_index, val_main_v64_apply, val_main_v63_apply, val_main_v60_apply,
    val_main_v52_apply, val_main_v50_apply, val_main_v46_apply, hrow0, norm0_apply,
    val_main_v51_apply, val_main_v49_apply, val_main_v48_apply, val_main_v47_apply, hw0,
    val_main_v59_apply, val_main_v57_apply, val_main_v53_apply, hrow1, norm1_apply,
    val_main_v58_apply, val_main_v56_apply, val_main_v55_apply, val_main_v54_apply, hw1,
    val_main_v62_apply, val_main_v61_apply, hb, val_main_call0_v0_apply, val_main_call0_cst_apply]
  simp only [Ideal.addf_def, Ideal.mulf_def, Ideal.maximumf_def, Ideal.ofBits_def]
  rfl

/-- The hidden matrix at edge e and output lane j: the dense layer over the 2048 features, the second normalisation
    and the second maximum, as the specification writes them for that edge's two gathered rows. -/
theorem hidden_apply (x0 : (⟨S50000x128, .f32⟩ : BufTy).Contents (Elt Ideal)) (x1 : (⟨S500x128, .f32⟩ : BufTy).Contents (Elt Ideal))
    (x2 : (⟨S2x131072, .i32⟩ : BufTy).Contents (Elt Ideal)) (x3 : (⟨S131072, .i32⟩ : BufTy).Contents (Elt Ideal))
    (x4 : (⟨S16x2, .f32⟩ : BufTy).Contents (Elt Ideal)) (x5 : (⟨S16, .f32⟩ : BufTy).Contents (Elt Ideal))
    (x6 : (⟨S2048x128, .f32⟩ : BufTy).Contents (Elt Ideal)) (x7 : (⟨S128, .f32⟩ : BufTy).Contents (Elt Ideal))
    (x8 x9 x10 x11 : (⟨S1, .f32⟩ : BufTy).Contents (Elt Ideal)) (x12 x13 x14 x15 : (⟨S128, .f32⟩ : BufTy).Contents (Elt Ideal)) (e : Fin 131072) (j : Fin 128) :
    val_main_v83 (F := Ideal) x0 x1 x2 x3 x4 x5 x6 x7 x8 x9 x10 x11 x12 x13 x14 x15 (ix2 e j)
      = hidden (plainNorm (x8 (ix1 0)) (x9 (ix1 0)) (x10 (ix1 0)) (x11 (ix1 0)))
          (fun l => val_main_v10 (F := Ideal) x0 x2 (ix2 e l)) (fun l => val_main_v17 (F := Ideal) x1 x3 (ix2 e l))
          x4 x5 x6 x7 x12 x13 x14 x15 j := by
  have hl : ∀ k : Fin 2048, lidx_main_v66 (ix2 e j) k = ix2 e k :=
    fun k => funext fun a => Fin.ext (by match a with | ⟨0, _⟩ => rfl | ⟨1, _⟩ => rfl)
  have hr : ∀ k : Fin 2048, ridx_main_v66 (ix2 e j) k = ix2 k j :=
    fun k => funext fun a => Fin.ext (by match a with | ⟨0, _⟩ => rfl | ⟨1, _⟩ => rfl)
  have hfcb : idx_main_v67 (idx_main_v68 (ix2 e j)) = ix1 j :=
    funext fun a => Fin.ext (by match a with | ⟨0, _⟩ => rfl)
  have hm3 : idx_main_v70 (idx_main_v71 (ix2 e j)) = ix1 j :=
    funext fun a => Fin.ext (by match a with | ⟨0, _⟩ => rfl)
  have hs3 : idx_main_v77 (idx_main_v78 (ix2 e j)) = ix1 j :=
    funext fun a => Fin.ext (by match a with | ⟨0, _⟩ => rfl)
  have hb3 : idx_main_v80 (idx_main_v81 (ix2 e j)) = ix1 j :=
    funext fun a => Fin.ext (by match a with | ⟨0, _⟩ => rfl)
  rw [val_main_v83_apply, val_main_v82_apply, val_main_v79_apply, val_main_v72_apply, val_main_v69_apply, val_main_v66_apply,
    val_main_v68_apply, val_main_v67_apply, hfcb, val_main_v71_apply, val_main_v70_apply, hm3,
    val_main_v78_apply, val_main_v77_apply, hs3, val_main_v76_apply, val_main_v75_apply, val_main_v74_apply,
    val_main_v73_apply, val_main_cst_5_apply, val_main_v81_apply, val_main_v80_apply, hb3,
    val_main_call1_v0_apply, val_main_call1_cst_apply]
  simp only [hl, hr, feat_apply, Ideal.addf_def, Ideal.subf_def, Ideal.mulf_def, Ideal.maximumf_def,
    Ideal.hostUnary_rsqrt_def, Ideal.ofBits_def]
  rfl

/-- The reference program's result is the specification's column of scores, read at the three gathered matrices. -/
theorem ref_is_spec (x0 : (⟨S50000x128, .f32⟩ : BufTy).Contents (Elt Ideal)) (x1 : (⟨S500x128, .f32⟩ : BufTy).Contents (Elt Ideal))
    (x2 : (⟨S2x131072, .i32⟩ : BufTy).Contents (Elt Ideal)) (x3 : (⟨S131072, .i32⟩ : BufTy).Contents (Elt Ideal))
    (x4 : (⟨S16x2, .f32⟩ : BufTy).Contents (Elt Ideal)) (x5 : (⟨S16, .f32⟩ : BufTy).Contents (Elt Ideal))
    (x6 : (⟨S2048x128, .f32⟩ : BufTy).Contents (Elt Ideal)) (x7 : (⟨S128, .f32⟩ : BufTy).Contents (Elt Ideal))
    (x8 x9 x10 x11 : (⟨S1, .f32⟩ : BufTy).Contents (Elt Ideal)) (x12 x13 x14 x15 : (⟨S128, .f32⟩ : BufTy).Contents (Elt Ideal)) :
    val_main_v86 (F := Ideal) x0 x1 x2 x3 x4 x5 x6 x7 x8 x9 x10 x11 x12 x13 x14 x15
      = out (plainNorm (x8 (ix1 0)) (x9 (ix1 0)) (x10 (ix1 0)) (x11 (ix1 0)))
          (val_main_v10 (F := Ideal) x0 x2) (val_main_v17 (F := Ideal) x1 x3) (val_main_v24 (F := Ideal) x0 x2)
          x4 x5 x6 x7 x12 x13 x14 x15 := by
  funext i
  obtain ⟨e, u, rfl⟩ : ∃ (e : Fin 131072) (u : Fin 1), i = ix2 e u := ⟨i 0, i 1, eq_ix2 i⟩
  have hi : ∀ k : Fin 128, idx_main_v85 (idx_main_v86 (ix2 e u)) k = ix2 e k :=
    fun k => funext fun a => Fin.ext (by match a with | ⟨0, _⟩ => rfl | ⟨1, _⟩ => rfl)
  rw [val_main_v86_apply, val_main_v85_apply, val_main_cst_6_apply, Ideal.ofBits_def]
  show zero + _ = _
  rw [zero_eq, zero_add]
  show _ = ∑ j : Fin 128,
    hidden (plainNorm (x8 (ix1 0)) (x9 (ix1 0)) (x10 (ix1 0)) (x11 (ix1 0)))
      (fun l => val_main_v10 (F := Ideal) x0 x2 (ix2 e l)) (fun l => val_main_v17 (F := Ideal) x1 x3 (ix2 e l))
      x4 x5 x6 x7 x12 x13 x14 x15 j * val_main_v24 (F := Ideal) x0 x2 (ix2 e j)
  refine Finset.sum_congr rfl fun k _ => ?_
  rw [hi, val_main_v84_apply, hidden_apply, Ideal.mulf_def]

end Cert.ConvE.Ref

end
-- ==== Proof.Slabs.lean ====
/-
  The body of the block program, first half: from the two loaded embedding blocks to the sixteen feature slabs.

  The body normalises each loaded block entrywise, x * s + o with the two scalars s and o it extracts from one-element
  arrays, and then builds, channel by channel, max (a * w[c,0] + b * w[c,1] + cb[c]) 0 over the two normalised blocks a
  and b: sixteen slabs, each a pointwise function of the same two blocks and of row c of the channel weights. The
  weights reach the arithmetic as one-entry slices read at their only position; such a slice-and-read is the array
  read at the slice's offset.
-/
import proofs.«161276_j62758062129643_2_alg».proof.Proof.Gen.KernelIdeal.Skeleton
import proofs.«161276_j62758062129643_2_alg».proof.Proof.Spec
import Idealize.ShloMosaic.Lib.ValueIdx
import Idealize.ShloMosaic.Lib.Pipeline.Value

noncomputable section

namespace Cert.ConvE.Body

open Cert.KernelIdeal Cert.KernelIdeal.Gen Idealize.ShloMosaic Idealize.ShloMosaic.ValueIdx

/-- The only entry of a one-entry slice of the channel weights at offset (c, q) is w[c, q]. -/
theorem weight (w : S16x2.Idx → EReal) (off : Fin 2 → Nat) (h : S16x2.Slices off S1x1)
    (h2 : ∀ a, (![0, 0] : Fin 2 → Nat) a < S1x1.size a) (c : Fin 16) (q : Fin 2) (hc : off 0 = c.val) (hq : off 1 = q.val) :
    extractAt ![0, 0] (extractStridedSlice S1x1 off w h) h2 = w (ix2 c q) := by
  unfold extractAt extractStridedSlice
  exact congrArg w (funext fun a => Fin.ext (by
    match a with
    | ⟨0, _⟩ => show off 0 + 0 = c.val; omega
    | ⟨1, _⟩ => show off 1 + 0 = q.val; omega))

/-- The only entry of a one-entry slice of the channel biases at offset c is cb[c]. -/
theorem bias (cb : S16.Idx → EReal) (off : Fin 1 → Nat) (h : S16.Slices off S1)
    (h2 : ∀ a, (![0] : Fin 1 → Nat) a < S1.size a) (c : Fin 16) (hc : off 0 = c.val) :
    extractAt ![0] (extractStridedSlice S1 off cb h) h2 = cb (ix1 c) := by
  unfold extractAt extractStridedSlice
  exact congrArg cb (funext fun a => Fin.ext (by
    match a with
    | ⟨0, _⟩ => show off 0 + 0 = c.val; omega))

/-- The only entry of a one-element array. -/
theorem only (v : S1.Idx → EReal) (h2 : ∀ a, (![0] : Fin 1 → Nat) a < S1.size a) : extractAt ![0] v h2 = v (ix1 0) := by
  unfold extractAt
  exact congrArg v (funext fun a => Fin.ext (by
    match a with
    | ⟨0, _⟩ => rfl))

/-- The first loaded block, normalised entrywise with the scale s[0] and the offset o[0]. -/
theorem normed0 (s o : Vec Ideal S1 .f32) (x : Vec Ideal S2048x128 .bf16) (i : S2048x128.Idx) :
    k0_pay5 (F := Ideal) s o x i = x i * s (ix1 0) + o (ix1 0) := by
  unfold k0_pay5 k0_pay3 k0_pay4
  simp only [addf_apply, mulf_apply, broadcast_apply, extf_apply, shapeCast_self, only]

/-- The second loaded block, normalised the same way. -/
theorem normed1 (s o : Vec Ideal S1 .f32) (x : Vec Ideal S2048x128 .bf16) (i : S2048x128.Idx) :
    k0_pay6 (F := Ideal) s o x i = x i * s (ix1 0) + o (ix1 0) := by
  unfold k0_pay6 k0_pay3 k0_pay4
  simp only [addf_apply, mulf_apply, broadcast_apply, extf_apply, shapeCast_self, only]

/-- Channel c over two normalised blocks a and b: max (a * w[c,0] + b * w[c,1] + cb[c]) 0, entry by entry. -/
def slab (c : Fin 16) (a b : S2048x128.Idx → EReal) (w : S16x2.Idx → EReal) (cb : S16.Idx → EReal) : S2048x128.Idx → EReal :=
  fun i => max (a i * w (ix2 c 0) + b i * w (ix2 c 1) + cb (ix1 c)) Cert.ConvE.zero

theorem slab2_eq (a b : FVec Ideal S2048x128 .f32) (w : Vec Ideal S16x2 .f32) (cb : Vec Ideal S16 .f32) :
    k0_pay11 (F := Ideal) a b w cb = slab 2 a b w cb := by
  funext i
  unfold k0_pay11
  simp only [truncf_apply, maximumf_apply, addf_apply, mulf_apply, broadcast_apply]
  rw [weight w ![2, 0] _ _ 2 0 rfl rfl, weight w ![2, 1] _ _ 2 1 rfl rfl, bias cb ![2] _ _ 2 rfl]
  rfl

theorem slab3_eq (a b : FVec Ideal S2048x128 .f32) (w : Vec Ideal S16x2 .f32) (cb : Vec Ideal S16 .f32) :
    k0_pay12 (F := Ideal) a b w cb = slab 3 a b w cb := by
  funext i
  unfold k0_pay12
  simp only [truncf_apply, maximumf_apply, addf_apply, mulf_apply, broadcast_apply]
  rw [weight w ![3, 0] _ _ 3 0 rfl rfl, weight w ![3, 1] _ _ 3 1 rfl rfl, bias cb ![3] _ _ 3 rfl]
  rfl

theorem slab4_eq (a b : FVec Ideal S2048x128 .f32) (w : Vec Ideal S16x2 .f32) (cb : Vec Ideal S16 .f32) :
    k0_pay13 (F := Ideal) a b w cb = slab 4 a b w cb := by
  funext i
  unfold k0_pay13
  simp only [truncf_apply, maximumf_apply, addf_apply, mulf_apply, broadcast_apply]
  rw [weight w ![4, 0] _ _ 4 0 rfl rfl, weight w ![4, 1] _ _ 4 1 rfl rfl, bias cb ![4] _ _ 4 rfl]
  rfl

theorem slab6_eq (a b : FVec Ideal S2048x128 .f32) (w : Vec Ideal S16x2 .f32) (cb : Vec Ideal S16 .f32) :
    k0_pay17 (F := Ideal) a b w cb = slab 6 a b w cb := by
  funext i
  unfold k0_pay17
  simp only [truncf_apply, maximumf_apply, addf_apply, mulf_apply, broadcast_apply]
  rw [weight w ![6, 0] _ _ 6 0 rfl rfl, weight w ![6, 1] _ _ 6 1 rfl rfl, bias cb ![6] _ _ 6 rfl]
  rfl

theorem slab7_eq (a b : FVec Ideal S2048x128 .f32) (w : Vec Ideal S16x2 .f32) (cb : Vec Ideal S16 .f32) :
    k0_pay18 (F := Ideal) a b w cb = slab 7 a b w cb := by
  funext i
  unfold k0_pay18
  simp only [truncf_apply, maximumf_apply, addf_apply, mulf_apply, broadcast_apply]
  rw [weight w ![7, 0] _ _ 7 0 rfl rfl, weight w ![7, 1] _ _ 7 1 rfl rfl, bias cb ![7] _ _ 7 rfl]
  rfl

theorem slab9_eq (a b : FVec Ideal S2048x128 .f32) (w : Vec Ideal S16x2 .f32) (cb : Vec Ideal S16 .f32) :
    k0_pay22 (F := Ideal) a b w cb = slab 9 a b w cb := by
  funext i
  unfold k0_pay22
  simp only [truncf_apply, maximumf_apply, addf_apply, mulf_apply, broadcast_apply]
  rw [weight w ![9, 0] _ _ 9 0 rfl rfl, weight w ![9, 1] _ _ 9 1 rfl rfl, bias cb ![9] _ _ 9 rfl]
  rfl

theorem slab10_eq (a b : FVec Ideal S2048x128 .f32) (w : Vec Ideal S16x2 .f32) (cb : Vec Ideal S16 .f32) :
    k0_pay23 (F := Ideal) a b w cb = slab 10 a b w cb := by
  funext i
  unfold k0_pay23
  simp only [truncf_apply, maximumf_apply, addf_apply, mulf_apply, broadcast_apply]
  rw [weight w ![10, 0] _ _ 10 0 rfl rfl, weight w ![10, 1] _ _ 10 1 rfl rfl, bias cb ![10] _ _ 10 rfl]
  rfl

theorem slab11_eq (a b : FVec Ideal S2048x128 .f32) (w : Vec Ideal S16x2 .f32) (cb : Vec Ideal S16 .f32) :
    k0_pay24 (F := Ideal) a b w cb = slab 11 a b w cb := by
  funext i
  unfold k0_pay24
  simp only [truncf_apply, maximumf_apply, addf_apply, mulf_apply, broadcast_apply]
  rw [weight w ![11, 0] _ _ 11 0 rfl rfl, weight w ![11, 1] _ _ 11 1 rfl rfl, bias cb ![11] _ _ 11 rfl]
  rfl

theorem slab13_eq (a b : FVec Ideal S2048x128 .f32) (w : Vec Ideal S16x2 .f32) (cb : Vec Ideal S16 .f32) :
    k0_pay28 (F := Ideal) a b w cb = slab 13 a b w cb := by
  funext i
  unfold k0_pay28
  simp only [truncf_apply, maximumf_apply, addf_apply, mulf_apply, broadcast_apply]
  rw [weight w ![13, 0] _ _ 13 0 rfl rfl, weight w ![13, 1] _ _ 13 1 rfl rfl, bias cb ![13] _ _ 13 rfl]
  rfl

theorem slab14_eq (a b : FVec Ideal S2048x128 .f32) (w : Vec Ideal S16x2 .f32) (cb : Vec Ideal S16 .f32) :
    k0_pay29 (F := Ideal) a b w cb = slab 14 a b w cb := by
  funext i
  unfold k0_pay29
  simp only [truncf_apply, maximumf_apply, addf_apply, mulf_apply, broadcast_apply]
  rw [weight w ![14, 0] _ _ 14 0 rfl rfl, weight w ![14, 1] _ _ 14 1 rfl rfl, bias cb ![14] _ _ 14 rfl]
  rfl

theorem slab5_eq (a b : FVec Ideal S2048x128 .f32) (w : Vec Ideal S16x2 .f32) (cb : Vec Ideal S16 .f32) :
    k0_pay16 (F := Ideal) a b cb (k0_pay14 w) (k0_pay15 w) = slab 5 a b w cb := by
  funext i
  unfold k0_pay16 k0_pay14 k0_pay15
  simp only [truncf_apply, maximumf_apply, addf_apply, mulf_apply, broadcast_apply]
  rw [weight w ![5, 0] _ _ 5 0 rfl rfl, weight w ![5, 1] _ _ 5 1 rfl rfl, bias cb ![5] _ _ 5 rfl]
  rfl

theorem slab8_eq (a b : FVec Ideal S2048x128 .f32) (w : Vec Ideal S16x2 .f32) (cb : Vec Ideal S16 .f32) :
    k0_pay21 (F := Ideal) (k0_pay19 a b w) (k0_pay20 cb) = slab 8 a b w cb := by
  funext i
  unfold k0_pay21 k0_pay19 k0_pay20
  simp only [truncf_apply, maximumf_apply, addf_apply, mulf_apply, broadcast_apply]
  rw [weight w ![8, 0] _ _ 8 0 rfl rfl, weight w ![8, 1] _ _ 8 1 rfl rfl, bias cb ![8] _ _ 8 rfl]
  rfl

theorem slab12_eq (a b : FVec Ideal S2048x128 .f32) (w : Vec Ideal S16x2 .f32) (cb : Vec Ideal S16 .f32) :
    k0_pay27 (F := Ideal) a b cb (k0_pay25 w) (k0_pay26 w) = slab 12 a b w cb := by
  funext i
  unfold k0_pay27 k0_pay25 k0_pay26
  simp only [truncf_apply, maximumf_apply, addf_apply, mulf_apply, broadcast_apply]
  rw [weight w ![12, 0] _ _ 12 0 rfl rfl, weight w ![12, 1] _ _ 12 1 rfl rfl, bias cb ![12] _ _ 12 rfl]
  rfl

theorem slab0_eq (s o : Vec Ideal S1 .f32) (x0 x1 : Vec Ideal S2048x128 .bf16) (w : Vec Ideal S16x2 .f32) (cb : Vec Ideal S16 .f32) :
    k0_pay7 (F := Ideal) s o x0 x1 w cb = slab 0 (k0_pay5 s o x0) (k0_pay6 s o x1) w cb := by
  funext i
  unfold k0_pay7
  simp only [truncf_apply, maximumf_apply, addf_apply, mulf_apply, broadcast_apply]
  rw [weight w ![0, 0] _ _ 0 0 rfl rfl, weight w ![0, 1] _ _ 0 1 rfl rfl, bias cb ![0] _ _ 0 rfl]
  rfl

theorem slab1_eq (s o : Vec Ideal S1 .f32) (x0 x1 : Vec Ideal S2048x128 .bf16) (w : Vec Ideal S16x2 .f32) (cb : Vec Ideal S16 .f32) :
    k0_pay10 (F := Ideal) (k0_pay8 cb) (k0_pay9 s o x0 x1 w) = slab 1 (k0_pay5 s o x0) (k0_pay6 s o x1) w cb := by
  funext i
  unfold k0_pay10 k0_pay8 k0_pay9
  simp only [truncf_apply, maximumf_apply, addf_apply, mulf_apply, broadcast_apply]
  rw [weight w ![1, 0] _ _ 1 0 rfl rfl, weight w ![1, 1] _ _ 1 1 rfl rfl, bias cb ![1] _ _ 1 rfl]
  rfl

/-- The sixteenth slab is finished (max with zero) where the slabs are joined; before that it is the bare channel mix. -/
theorem slab15_eq (a b : FVec Ideal S2048x128 .f32) (w : Vec Ideal S16x2 .f32) (cb : Vec Ideal S16 .f32) :
    (truncf .bf16 (maximumf (k0_pay30 (F := Ideal) a b w cb) (broadcast S2048x128 (Scalar.ofBits .f32 0x00000000#32))) bitsLt_bf16_f32 : FVec Ideal S2048x128 .bf16)
      = slab 15 a b w cb := by
  funext i
  unfold k0_pay30
  simp only [truncf_apply, maximumf_apply, addf_apply, mulf_apply, broadcast_apply]
  rw [weight w ![15, 0] _ _ 15 0 rfl rfl, weight w ![15, 1] _ _ 15 1 rfl rfl, bias cb ![15] _ _ 15 rfl]
  rfl

end Cert.ConvE.Body

end
-- ==== Proof.LibLaneSum.lean ====
/-
  The sum along the rows of a matrix, read at one row.

  A float `vector.multi_reduction <add>` of an `[a, b]` matrix over its SECOND axis (a lane sum: one number per row, the
  form `jnp.sum(x, axis=-1)` takes inside a kernel) is, at row `p` on the extended reals, the plain sum over the
  columns `k` of the entries `(p, k)`: the reduction's accumulator is the neutral element of the sum and contributes
  nothing, and the index the reduction inserts the column `k` into at row `p` is `(p, k)`.
-/
import Idealize.ShloMosaic.Lib.ValueIdx
import Idealize.ShloMosaic.PureOps.Ideal.Laws

noncomputable section

namespace Cert.LaneSum

open Idealize.ShloMosaic Idealize.ShloMosaic.ValueIdx

/-- Row `p` of the lane sum of an `[a, b]` matrix is `∑ k, src[p, k]`, for any float format and any witnesses of the
    reduction's side conditions. -/
theorem multiReduction_add_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun c => Fin.ext (by
      match c with
      | ⟨0, _⟩ => rfl
      | ⟨1, _⟩ => rfl)))

end Cert.LaneSum

end
-- ==== Proof.LibColumnLayout.lean ====
/-
  A vector laid out as a column, and a column broadcast across many columns.

  Reading a reshape or a broadcast at an index: an `[a]` array cast to `[a, 1]` holds at (i, 0) its entry i, and an
  `[a, 1]` column broadcast to `[a, b]` holds at (p, c) the column's entry p, whatever the column c. These are the forms a
  sum kept as a column (one number per row) takes when it is added back to a matrix row by row.
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`: the row coordinate is kept
    (or is 0 when there is one row), the unit axis is read at 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.BodyValue.lean ====
/-
  The body of the block program, second half, and the block's value.

  The sixteen slabs are joined side by side into a [2048, 2048] matrix: column k of the join is slab k / 128 at
  column k % 128. That matrix times the dense weights, plus the dense bias, minus the second mean, times the second
  scale g3 * rsqrt (v3 + eps), plus the second shift, through max with zero, times the object block entry by entry,
  summed along each row: row p of the result is the score of the block's p-th edge, a function of row p of the
  three loaded blocks only.
-/
import proofs.«161276_j62758062129643_2_alg».proof.Proof.Gen.KernelIdeal.Frame
import proofs.«161276_j62758062129643_2_alg».proof.Proof.Slabs
import proofs.«161276_j62758062129643_2_alg».proof.Proof.LibLaneSum
import proofs.«161276_j62758062129643_2_alg».proof.Proof.LibColumnLayout
import proofs.«161276_j62758062129643_2_alg».proof.Proof.LibPlainProduct
import Idealize.ShloMosaic.Lib.ValueLayout

noncomputable section

open scoped BigOperators

namespace Cert.ConvE.Body

open Cert.KernelIdeal Cert.KernelIdeal.Gen Idealize.ShloMosaic Idealize.ShloMosaic.ValueIdx

theorem hz1 : (![0] : Fin 1 → Nat) = fun _ => 0 := funext fun a => by fin_cases a <;> rfl
theorem hz2 : (![0, 0] : Fin 2 → Nat) = fun _ => 0 := funext fun a => by fin_cases a <;> rfl

/-- Column k of the sixteen slabs joined side by side is slab k / 128 at column k % 128. -/
theorem joined_slabs (a b : S2048x128.Idx → EReal) (w : S16x2.Idx → EReal) (cb : S16.Idx → EReal)
    (h : Shape.Concatenates (([⟨S2048x128, slab 0 a b w cb⟩, ⟨S2048x128, slab 1 a b w cb⟩, ⟨S2048x128, slab 2 a b w cb⟩, ⟨S2048x128, slab 3 a b w cb⟩, ⟨S2048x128, slab 4 a b w cb⟩, ⟨S2048x128, slab 5 a b w cb⟩, ⟨S2048x128, slab 6 a b w cb⟩, ⟨S2048x128, slab 7 a b w cb⟩, ⟨S2048x128, slab 8 a b w cb⟩, ⟨S2048x128, slab 9 a b w cb⟩, ⟨S2048x128, slab 10 a b w cb⟩, ⟨S2048x128, slab 11 a b w cb⟩, ⟨S2048x128, slab 12 a b w cb⟩, ⟨S2048x128, slab 13 a b w cb⟩, ⟨S2048x128, slab 14 a b w cb⟩, ⟨S2048x128, slab 15 a b w cb⟩] : List ((s : Shape) × (s.Idx → EReal))).map (·.1)) S2048x2048 1)
    (p : Fin 2048) (k : Fin 2048) :
    concatenate S2048x2048 1 [⟨S2048x128, slab 0 a b w cb⟩, ⟨S2048x128, slab 1 a b w cb⟩, ⟨S2048x128, slab 2 a b w cb⟩, ⟨S2048x128, slab 3 a b w cb⟩, ⟨S2048x128, slab 4 a b w cb⟩, ⟨S2048x128, slab 5 a b w cb⟩, ⟨S2048x128, slab 6 a b w cb⟩, ⟨S2048x128, slab 7 a b w cb⟩, ⟨S2048x128, slab 8 a b w cb⟩, ⟨S2048x128, slab 9 a b w cb⟩, ⟨S2048x128, slab 10 a b w cb⟩, ⟨S2048x128, slab 11 a b w cb⟩, ⟨S2048x128, slab 12 a b w cb⟩, ⟨S2048x128, slab 13 a b w cb⟩, ⟨S2048x128, slab 14 a b w cb⟩, ⟨S2048x128, slab 15 a b w cb⟩] h (ix2 p k)
      = slab (chan k) a b w cb (ix2 p (lane k)) :=
  concatenate_ofFn_apply (t := S2048x2048) (s₁ := S2048x128) 1 (fun c : Fin 16 => slab c a b w cb) h rfl 128 rfl (ix2 p k) (chan k) rfl
    (ix2 p (lane k)) rfl (fun q hq => by
      match q with
      | ⟨0, _⟩ => rfl
      | ⟨1, _⟩ => exact absurd rfl hq)

/-- A [128] vector laid as a row and repeated down 2048 rows reads, at (p, j), the vector at j. -/
theorem row_apply (v : S128.Idx → EReal) (h1 : S128.ShapeCasts S1x128) (h2 : S1x128.Broadcasts S2048x128) (p : Fin 2048) (j : Fin 128) :
    broadcastTo S2048x128 (shapeCast S1x128 v h1) h2 (ix2 p j) = v (ix1 j) :=
  (broadcastTo_1b_ab_apply _ h2 p j).trans (shapeCast_a_1a_apply v h1 0 j)

theorem dense_lhs0 (i : S2048x128.Idx) (q : dot_S2048x2048_S2048x128_S2048x128_1_0_0_1_n_n.contr.Idx) : (dot_S2048x2048_S2048x128_S2048x128_1_0_0_1_n_n.lhsIdx i q 0).val = (i 0).val := by
  unfold DotDims.lhsIdx
  rw [dif_neg (show ¬(0 : Fin S2048x2048.rank) ∈ dot_S2048x2048_S2048x128_S2048x128_1_0_0_1_n_n.lhsBatch by decide), dif_pos (show (0 : Fin S2048x2048.rank) ∈ dot_S2048x2048_S2048x128_S2048x128_1_0_0_1_n_n.lhsNonContracting by decide)]
  rfl
theorem dense_lhs1 (i : S2048x128.Idx) (q : dot_S2048x2048_S2048x128_S2048x128_1_0_0_1_n_n.contr.Idx) : (dot_S2048x2048_S2048x128_S2048x128_1_0_0_1_n_n.lhsIdx i q 1).val = (q ⟨0, by decide⟩).val :=
  dot_S2048x2048_S2048x128_S2048x128_1_0_0_1_n_n.lhsIdx_val_of_single rfl i q
theorem dense_rhs0 (i : S2048x128.Idx) (q : dot_S2048x2048_S2048x128_S2048x128_1_0_0_1_n_n.contr.Idx) : (dot_S2048x2048_S2048x128_S2048x128_1_0_0_1_n_n.rhsIdx i q 0).val = (q ⟨0, by decide⟩).val :=
  dot_S2048x2048_S2048x128_S2048x128_1_0_0_1_n_n.rhsIdx_val_of_single rfl i q
theorem dense_rhs1 (i : S2048x128.Idx) (q : dot_S2048x2048_S2048x128_S2048x128_1_0_0_1_n_n.contr.Idx) : (dot_S2048x2048_S2048x128_S2048x128_1_0_0_1_n_n.rhsIdx i q 1).val = (i 1).val := by
  unfold DotDims.rhsIdx
  rw [dif_neg (show ¬(1 : Fin S2048x128.rank) ∈ dot_S2048x2048_S2048x128_S2048x128_1_0_0_1_n_n.rhsBatch by decide), dif_pos (show (1 : Fin S2048x128.rank) ∈ dot_S2048x2048_S2048x128_S2048x128_1_0_0_1_n_n.rhsNonContracting by decide)]
  rfl

/-- The dense layer, second normalisation, max and inner product, at row p of a feature matrix Fm. -/
theorem dense_score (Fm : FVec Ideal S2048x2048 .bf16) (fw : Vec Ideal S2048x128 .bf16) (fcb g3 b3 m3 v3 : Vec Ideal S128 .f32)
    (cj : Vec Ideal S2048x128 .f32) (p : Fin 2048) (u : Fin 1) :
    k0_pay2 (F := Ideal) Fm fw fcb g3 b3 m3 v3 cj (ix2 p u)
      = ∑ j : Fin 128, max (((∑ k : Fin 2048, Fm (ix2 p k) * fw (ix2 k j)) + fcb (ix1 j) - m3 (ix1 j))
          * (g3 (ix1 j) * Ideal.rsqrt (v3 (ix1 j) + Cert.ConvE.eps)) + b3 (ix1 j)) Cert.ConvE.zero * cj (ix2 p j) := by
  unfold k0_pay2
  refine (Cert.ColumnLayout.shapeCast_a_a1_apply _ _ p u).trans ?_
  refine (Cert.LaneSum.multiReduction_add_rows _ _ _ _ _ p).trans ?_
  refine Finset.sum_congr rfl fun j _ => ?_
  simp only [mulf_apply, maximumf_apply, addf_apply, subf_apply, broadcast_apply, shapeCast_self, row_apply]
  have hm : matmul (φ₂ := .bf16) dot_S2048x2048_S2048x128_S2048x128_1_0_0_1_n_n none Fm fw (constant (F := Ideal) S2048x128 .f32 0x00000000#32) (ix2 p j)
      = ∑ k : Fin 2048, Fm (ix2 p k) * fw (ix2 k j) :=
    Cert.PlainProduct.matmul_zero_entry (φ₂ := .bf16) dot_S2048x2048_S2048x128_S2048x128_1_0_0_1_n_n rfl rfl dense_lhs0 dense_lhs1 dense_rhs0 dense_rhs1 Fm fw p j
  rw [hm]
  rfl

/-- Feature k of the block's row p: the join of the sixteen slabs over the two normalised blocks is, at (p, k), the
    specification's feature of rows p of the two loaded blocks under the normalisation x * s[0] + o[0]. -/
theorem features (x0 x1 : Vec Ideal S2048x128 .bf16) (x9 : Vec Ideal S16x2 .f32) (x10 : Vec Ideal S16 .f32) (x11 x12 : Vec Ideal S1 .f32)
    (p : Fin 2048) (k : Fin 2048) :
    (k0_pay1 (k0_pay7 x11 x12 x0 x1 x9 x10) (k0_pay10 (k0_pay8 x10) (k0_pay9 x11 x12 x0 x1 x9)) (k0_pay11 (k0_pay5 x11 x12 x0) (k0_pay6 x11 x12 x1) x9 x10) (k0_pay12 (k0_pay5 x11 x12 x0) (k0_pay6 x11 x12 x1) x9 x10) (k0_pay13 (k0_pay5 x11 x12 x0) (k0_pay6 x11 x12 x1) x9 x10) (k0_pay16 (k0_pay5 x11 x12 x0) (k0_pay6 x11 x12 x1) x10 (k0_pay14 x9) (k0_pay15 x9)) (k0_pay17 (k0_pay5 x11 x12 x0) (k0_pay6 x11 x12 x1) x9 x10) (k0_pay18 (k0_pay5 x11 x12 x0) (k0_pay6 x11 x12 x1) x9 x10) (k0_pay21 (k0_pay19 (k0_pay5 x11 x12 x0) (k0_pay6 x11 x12 x1) x9) (k0_pay20 x10)) (k0_pay22 (k0_pay5 x11 x12 x0) (k0_pay6 x11 x12 x1) x9 x10) (k0_pay23 (k0_pay5 x11 x12 x0) (k0_pay6 x11 x12 x1) x9 x10) (k0_pay24 (k0_pay5 x11 x12 x0) (k0_pay6 x11 x12 x1) x9 x10) (k0_pay27 (k0_pay5 x11 x12 x0) (k0_pay6 x11 x12 x1) x10 (k0_pay25 x9) (k0_pay26 x9)) (k0_pay28 (k0_pay5 x11 x12 x0) (k0_pay6 x11 x12 x1) x9 x10) (k0_pay29 (k0_pay5 x11 x12 x0) (k0_pay6 x11 x12 x1) x9 x10) (k0_pay30 (k0_pay5 x11 x12 x0) (k0_pay6 x11 x12 x1) x9 x10) : FVec Ideal S2048x2048 .bf16) (ix2 p k)
      = Cert.ConvE.feat (fun x => x * x11 (ix1 0) + x12 (ix1 0)) (fun l => x0 (ix2 p l)) (fun l => x1 (ix2 p l)) x9 x10 k := by
  rw [slab0_eq, slab1_eq, slab2_eq, slab3_eq, slab4_eq, slab5_eq, slab6_eq, slab7_eq, slab8_eq, slab9_eq, slab10_eq, slab11_eq,
    slab12_eq, slab13_eq, slab14_eq]
  unfold k0_pay1
  rw [slab15_eq]
  refine (joined_slabs _ _ _ _ _ p k).trans ?_
  unfold slab Cert.ConvE.feat
  rw [normed0, normed1]

/-- THE BLOCK'S VALUE at row p: the score of rows p of the three loaded blocks, under the folded normalisation
    x * s[0] + o[0] with the two scalars the body is handed. -/
theorem block_value (x0 x1 : Vec Ideal S2048x128 .bf16) (x2 : Vec Ideal S2048x128 .f32) (x3 : Vec Ideal S2048x128 .bf16)
    (x4 x5 x6 x7 x8 : Vec Ideal S128 .f32) (x9 : Vec Ideal S16x2 .f32) (x10 : Vec Ideal S16 .f32) (x11 x12 : Vec Ideal S1 .f32)
    (p : Fin 2048) (u : Fin 1) :
    out0_13 (F := Ideal) x0 x1 x2 x3 x4 x5 x6 x7 x8 x9 x10 x11 x12 (ix2 p u)
      = Cert.ConvE.score (fun x => x * x11 (ix1 0) + x12 (ix1 0)) (fun l => x0 (ix2 p l)) (fun l => x1 (ix2 p l))
          (fun l => x2 (ix2 p l)) x9 x10 x3 x4 x5 x6 x7 x8 := by
  unfold out0_13
  rw [View.canon_unit_zero hz2]
  simp only [View.ld_unit_zero (S := S1) hz1, View.ld_unit_zero (S := S2048x128) hz2, View.ld_unit_zero (S := S16x2) hz2,
    View.ld_unit_zero (S := S16) hz1, View.ld_unit_zero (S := S128) hz1]
  rw [dense_score]
  unfold Cert.ConvE.score Cert.ConvE.hidden
  refine Finset.sum_congr rfl fun j _ => ?_
  simp only [features]

end Cert.ConvE.Body

end
-- ==== Proof.KernelBlocks.lean ====
/-
  From the blocks to the whole result array.

  The region runs the block program at 64 grid points. At point t the three row windows (the two embedding blocks
  and the object block) hold rows 2048 t .. 2048 t + 2047 of their [131072, 128] arrays, the ten parameter windows
  hold their whole arrays, and the output window writes back rows 2048 t .. 2048 t + 2047 of the [131072, 1] result.
  Row p of what point t writes back is the score of rows p of the three loaded blocks, that is of rows 2048 t + p of
  the three arrays: block t of ONE function G of the arrays as the region finds them. The 64 blocks cover every row
  (row r lies in block r / 2048), so after the run the result array is G.
-/
import proofs.«161276_j62758062129643_2_alg».proof.Proof.Gen.KernelIdeal.Value
import proofs.«161276_j62758062129643_2_alg».proof.Proof.BodyValue

noncomputable section

namespace Cert.ConvE.KValue

open Cert.KernelIdeal Cert.KernelIdeal.Gen Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- What the result array ends holding: the specification's column of scores, over the arrays as the region finds
    them, under the folded normalisation with the scale and offset the host computed. -/
def G (c : Dev nD) : S131072x1.Idx → EReal :=
  Cert.ConvE.out (fun x => x * (V m c main_v31 : S1.Idx → EReal) (ix1 0) + (V m c main_v33 : S1.Idx → EReal) (ix1 0))
    (V m c main_v25) (V m c main_v26) (V m c main_v24) (V m c main_arg4) (V m c main_arg5) (V m c main_v27)
    (V m c main_arg7) (V m c main_arg12) (V m c main_arg13) (V m c main_arg14) (V m c main_arg15)

/-- The index maps, decided over the grid: the three row windows move with the output window along the rows and stay at
    column block 0; every parameter window stays at block 0. -/
theorem idx_facts : ∀ t : Fin cfg0.N,
    win0_0.index t (0 : Fin 2) = win0_13.index t (0 : Fin 2)
    ∧ win0_0.index t (1 : Fin 2) = 0
    ∧ win0_1.index t (0 : Fin 2) = win0_13.index t (0 : Fin 2)
    ∧ win0_1.index t (1 : Fin 2) = 0
    ∧ win0_2.index t (0 : Fin 2) = win0_13.index t (0 : Fin 2)
    ∧ win0_2.index t (1 : Fin 2) = 0
    ∧ win0_13.index t (1 : Fin 2) = 0
    ∧ win0_3.index t (0 : Fin 2) = 0
    ∧ win0_3.index t (1 : Fin 2) = 0
    ∧ win0_4.index t (0 : Fin 1) = 0
    ∧ win0_5.index t (0 : Fin 1) = 0
    ∧ win0_6.index t (0 : Fin 1) = 0
    ∧ win0_7.index t (0 : Fin 1) = 0
    ∧ win0_8.index t (0 : Fin 1) = 0
    ∧ win0_9.index t (0 : Fin 2) = 0
    ∧ win0_9.index t (1 : Fin 2) = 0
    ∧ win0_10.index t (0 : Fin 1) = 0
    ∧ win0_11.index t (0 : Fin 1) = 0
    ∧ win0_12.index t (0 : Fin 1) = 0 :=
  (by decide +kernel : ∀ t : Fin grid0.N, _)

/-- Every row block of the result is some point's. -/
theorem idx_onto : ∀ q : Fin 64, ∃ t : Fin cfg0.N, win0_13.index t = ![q.val, 0] :=
  (by decide +kernel : ∀ q : Fin 64, ∃ t : Fin grid0.N, win0_13.index t = ![q.val, 0])

/-! ## A parameter window's block is its whole array -/

theorem blk3 (c : Dev nD) (t : Fin cfg0.N) : (iblk m c 3 t : S2048x128.Idx → EReal) = V m c main_v27 := by
  funext y
  show V m c main_v27 (((cfg0.win 3).blk t).view.emb y) = V m c main_v27 y
  obtain ⟨f0, f1, f2, f3, f4, f5, f6, f7, f8, f9, f10, f11, f12, f13, f14, f15, f16, f17, f18⟩ := idx_facts t
  refine congrArg _ (funext fun a => Fin.ext ?_)
  match a with
    | ⟨0, _⟩ => show win0_3.index t (0 : Fin 2) * 2048 + 1 * (y 0).val = (y 0).val; omega
    | ⟨1, _⟩ => show win0_3.index t (1 : Fin 2) * 128 + 1 * (y 1).val = (y 1).val; omega

theorem blk4 (c : Dev nD) (t : Fin cfg0.N) : (iblk m c 4 t : S128.Idx → EReal) = V m c main_arg7 := by
  funext y
  show V m c main_arg7 (((cfg0.win 4).blk t).view.emb y) = V m c main_arg7 y
  obtain ⟨f0, f1, f2, f3, f4, f5, f6, f7, f8, f9, f10, f11, f12, f13, f14, f15, f16, f17, f18⟩ := idx_facts t
  refine congrArg _ (funext fun a => Fin.ext ?_)
  match a with
    | ⟨0, _⟩ => show win0_4.index t (0 : Fin 1) * 128 + 1 * (y 0).val = (y 0).val; omega

theorem blk5 (c : Dev nD) (t : Fin cfg0.N) : (iblk m c 5 t : S128.Idx → EReal) = V m c main_arg12 := by
  funext y
  show V m c main_arg12 (((cfg0.win 5).blk t).view.emb y) = V m c main_arg12 y
  obtain ⟨f0, f1, f2, f3, f4, f5, f6, f7, f8, f9, f10, f11, f12, f13, f14, f15, f16, f17, f18⟩ := idx_facts t
  refine congrArg _ (funext fun a => Fin.ext ?_)
  match a with
    | ⟨0, _⟩ => show win0_5.index t (0 : Fin 1) * 128 + 1 * (y 0).val = (y 0).val; omega

theorem blk6 (c : Dev nD) (t : Fin cfg0.N) : (iblk m c 6 t : S128.Idx → EReal) = V m c main_arg13 := by
  funext y
  show V m c main_arg13 (((cfg0.win 6).blk t).view.emb y) = V m c main_arg13 y
  obtain ⟨f0, f1, f2, f3, f4, f5, f6, f7, f8, f9, f10, f11, f12, f13, f14, f15, f16, f17, f18⟩ := idx_facts t
  refine congrArg _ (funext fun a => Fin.ext ?_)
  match a with
    | ⟨0, _⟩ => show win0_6.index t (0 : Fin 1) * 128 + 1 * (y 0).val = (y 0).val; omega

theorem blk7 (c : Dev nD) (t : Fin cfg0.N) : (iblk m c 7 t : S128.Idx → EReal) = V m c main_arg14 := by
  funext y
  show V m c main_arg14 (((cfg0.win 7).blk t).view.emb y) = V m c main_arg14 y
  obtain ⟨f0, f1, f2, f3, f4, f5, f6, f7, f8, f9, f10, f11, f12, f13, f14, f15, f16, f17, f18⟩ := idx_facts t
  refine congrArg _ (funext fun a => Fin.ext ?_)
  match a with
    | ⟨0, _⟩ => show win0_7.index t (0 : Fin 1) * 128 + 1 * (y 0).val = (y 0).val; omega

theorem blk8 (c : Dev nD) (t : Fin cfg0.N) : (iblk m c 8 t : S128.Idx → EReal) = V m c main_arg15 := by
  funext y
  show V m c main_arg15 (((cfg0.win 8).blk t).view.emb y) = V m c main_arg15 y
  obtain ⟨f0, f1, f2, f3, f4, f5, f6, f7, f8, f9, f10, f11, f12, f13, f14, f15, f16, f17, f18⟩ := idx_facts t
  refine congrArg _ (funext fun a => Fin.ext ?_)
  match a with
    | ⟨0, _⟩ => show win0_8.index t (0 : Fin 1) * 128 + 1 * (y 0).val = (y 0).val; omega

theorem blk9 (c : Dev nD) (t : Fin cfg0.N) : (iblk m c 9 t : S16x2.Idx → EReal) = V m c main_arg4 := by
  funext y
  show V m c main_arg4 (((cfg0.win 9).blk t).view.emb y) = V m c main_arg4 y
  obtain ⟨f0, f1, f2, f3, f4, f5, f6, f7, f8, f9, f10, f11, f12, f13, f14, f15, f16, f17, f18⟩ := idx_facts t
  refine congrArg _ (funext fun a => Fin.ext ?_)
  match a with
    | ⟨0, _⟩ => show win0_9.index t (0 : Fin 2) * 16 + 1 * (y 0).val = (y 0).val; omega
    | ⟨1, _⟩ => show win0_9.index t (1 : Fin 2) * 2 + 1 * (y 1).val = (y 1).val; omega

theorem blk10 (c : Dev nD) (t : Fin cfg0.N) : (iblk m c 10 t : S16.Idx → EReal) = V m c main_arg5 := by
  funext y
  show V m c main_arg5 (((cfg0.win 10).blk t).view.emb y) = V m c main_arg5 y
  obtain ⟨f0, f1, f2, f3, f4, f5, f6, f7, f8, f9, f10, f11, f12, f13, f14, f15, f16, f17, f18⟩ := idx_facts t
  refine congrArg _ (funext fun a => Fin.ext ?_)
  match a with
    | ⟨0, _⟩ => show win0_10.index t (0 : Fin 1) * 16 + 1 * (y 0).val = (y 0).val; omega

theorem blk11 (c : Dev nD) (t : Fin cfg0.N) : (iblk m c 11 t : S1.Idx → EReal) = V m c main_v31 := by
  funext y
  show V m c main_v31 (((cfg0.win 11).blk t).view.emb y) = V m c main_v31 y
  obtain ⟨f0, f1, f2, f3, f4, f5, f6, f7, f8, f9, f10, f11, f12, f13, f14, f15, f16, f17, f18⟩ := idx_facts t
  refine congrArg _ (funext fun a => Fin.ext ?_)
  match a with
    | ⟨0, _⟩ => show win0_11.index t (0 : Fin 1) * 1 + 1 * (y 0).val = (y 0).val; omega

theorem blk12 (c : Dev nD) (t : Fin cfg0.N) : (iblk m c 12 t : S1.Idx → EReal) = V m c main_v33 := by
  funext y
  show V m c main_v33 (((cfg0.win 12).blk t).view.emb y) = V m c main_v33 y
  obtain ⟨f0, f1, f2, f3, f4, f5, f6, f7, f8, f9, f10, f11, f12, f13, f14, f15, f16, f17, f18⟩ := idx_facts t
  refine congrArg _ (funext fun a => Fin.ext ?_)
  match a with
    | ⟨0, _⟩ => show win0_12.index t (0 : Fin 1) * 1 + 1 * (y 0).val = (y 0).val; omega

/-! ## Row p of a row window's block at point t is the array's row at the output block's row p -/

theorem row0 (c : Dev nD) (t : Fin cfg0.N) (p : Fin 2048) (u : Fin 1) :
    (fun l : Fin 128 => (iblk m c 0 t : S2048x128.Idx → EReal) (ix2 p l))
      = fun l : Fin 128 => (V m c main_v25 : S131072x128.Idx → EReal) (ix2 ((((cfg0.win 13).blk t).view.emb (ix2 p u)) 0) l) := by
  funext l
  show V m c main_v25 (((cfg0.win 0).blk t).view.emb (ix2 p l)) = V m c main_v25 (ix2 ((((cfg0.win 13).blk t).view.emb (ix2 p u)) 0) l)
  obtain ⟨f0, f1, f2, f3, f4, f5, f6, f7, f8, f9, f10, f11, f12, f13, f14, f15, f16, f17, f18⟩ := idx_facts t
  refine congrArg _ (funext fun a => Fin.ext ?_)
  match a with
    | ⟨0, _⟩ => show win0_0.index t (0 : Fin 2) * 2048 + 1 * p.val = win0_13.index t (0 : Fin 2) * 2048 + 1 * p.val; omega
    | ⟨1, _⟩ => show win0_0.index t (1 : Fin 2) * 128 + 1 * l.val = l.val; omega

theorem row1 (c : Dev nD) (t : Fin cfg0.N) (p : Fin 2048) (u : Fin 1) :
    (fun l : Fin 128 => (iblk m c 1 t : S2048x128.Idx → EReal) (ix2 p l))
      = fun l : Fin 128 => (V m c main_v26 : S131072x128.Idx → EReal) (ix2 ((((cfg0.win 13).blk t).view.emb (ix2 p u)) 0) l) := by
  funext l
  show V m c main_v26 (((cfg0.win 1).blk t).view.emb (ix2 p l)) = V m c main_v26 (ix2 ((((cfg0.win 13).blk t).view.emb (ix2 p u)) 0) l)
  obtain ⟨f0, f1, f2, f3, f4, f5, f6, f7, f8, f9, f10, f11, f12, f13, f14, f15, f16, f17, f18⟩ := idx_facts t
  refine congrArg _ (funext fun a => Fin.ext ?_)
  match a with
    | ⟨0, _⟩ => show win0_1.index t (0 : Fin 2) * 2048 + 1 * p.val = win0_13.index t (0 : Fin 2) * 2048 + 1 * p.val; omega
    | ⟨1, _⟩ => show win0_1.index t (1 : Fin 2) * 128 + 1 * l.val = l.val; omega

theorem row2 (c : Dev nD) (t : Fin cfg0.N) (p : Fin 2048) (u : Fin 1) :
    (fun l : Fin 128 => (iblk m c 2 t : S2048x128.Idx → EReal) (ix2 p l))
      = fun l : Fin 128 => (V m c main_v24 : S131072x128.Idx → EReal) (ix2 ((((cfg0.win 13).blk t).view.emb (ix2 p u)) 0) l) := by
  funext l
  show V m c main_v24 (((cfg0.win 2).blk t).view.emb (ix2 p l)) = V m c main_v24 (ix2 ((((cfg0.win 13).blk t).view.emb (ix2 p u)) 0) l)
  obtain ⟨f0, f1, f2, f3, f4, f5, f6, f7, f8, f9, f10, f11, f12, f13, f14, f15, f16, f17, f18⟩ := idx_facts t
  refine congrArg _ (funext fun a => Fin.ext ?_)
  match a with
    | ⟨0, _⟩ => show win0_2.index t (0 : Fin 2) * 2048 + 1 * p.val = win0_13.index t (0 : Fin 2) * 2048 + 1 * p.val; omega
    | ⟨1, _⟩ => show win0_2.index t (1 : Fin 2) * 128 + 1 * l.val = l.val; omega

/-- WHAT POINT t WRITES BACK is block t of G. -/
theorem flushed_eq (c : Dev nD) (t : Fin cfg0.N) :
    (dats m 0 c).flushed 13 t = ((cfg0.win 13).blk t).view.read (Elt Ideal) (G m c) := by
  rw [Cert.KernelIdeal.Value.flushed13]
  funext y
  obtain ⟨p, u, rfl⟩ : ∃ (p : Fin 2048) (u : Fin 1), y = ix2 p u := ⟨y 0, y 1, eq_ix2 y⟩
  show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 p u) = G m c (((cfg0.win 13).blk t).view.emb (ix2 p u))
  rw [Cert.ConvE.Body.block_value, blk3, blk4, blk5, blk6, blk7, blk8, blk9, blk10, blk11, blk12, row0 m c t p u, row1 m c t p u, row2 m c t p u]
  rfl

/-- An index of the result is in point t's block iff its row is in the block's row range. -/
theorem mem_blk (t : Fin cfg0.N) (i : S131072x1.Idx) :
    i ∈ ((cfg0.win 13).blk t).view.set ↔ ∀ a : Fin 2, win0_13.index t a * S2048x1.size a ≤ (i a).val ∧ (i a).val < win0_13.index t a * S2048x1.size a + S2048x1.size a := by
  show i ∈ ((View.whole main_v34).slice (win0_13.rect t)).set ↔ _
  rw [View.set_slice_whole, Rect.mem_set_unit]
  exact Iff.rfl

/-- Every index of the result lies in some point's block: row r in block r / 2048. -/
theorem covered (i : S131072x1.Idx) : ∃ t : Fin cfg0.N, (cfg0.win 13).flush t = true ∧ i ∈ ((cfg0.win 13).blk t).view.set := by
  have hi0 : (i 0).val < 131072 := (i 0).isLt
  have hi1 : (i 1).val < 1 := (i 1).isLt
  obtain ⟨t, ht⟩ := idx_onto ⟨(i 0).val / 2048, by omega⟩
  have q0 : win0_13.index t (0 : Fin 2) = (i 0).val / 2048 := congrFun ht 0
  have q1 : win0_13.index t (1 : Fin 2) = 0 := congrFun ht 1
  refine ⟨t, flush0_13 t, ?_⟩
  rw [mem_blk]
  intro a
  match a with
  | ⟨0, _⟩ => show win0_13.index t (0 : Fin 2) * 2048 ≤ (i 0).val ∧ (i 0).val < win0_13.index t (0 : Fin 2) * 2048 + 2048; omega
  | ⟨1, _⟩ => show win0_13.index t (1 : Fin 2) * 1 ≤ (i 1).val ∧ (i 1).val < win0_13.index t (1 : Fin 2) * 1 + 1; omega

/-- THE RESULT ARRAY after the run is G. -/
theorem final (c : Dev nD) : (dats m 0 c).arrAt 13 cfg0.N = G m c :=
  (dats m 0 c).arrAt_eq_of_cover 13 (G m c) (fun t _ => flushed_eq m c t) covered

/-- The run, with the result named: every execution ends with the result array at G and the arguments unchanged. -/
theorem run : θ_run defs (onTc (τ := τ) (main (F := Ideal))) ⟨m, fun _ => 0, ρ⟩ fun r => ∀ c : Dev nD,
      r.2.mem ((c : Thread nD τ).loc main_v34) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1.trans (final m c), (h c).2⟩) (Cert.KernelIdeal.Value.run_blocks m ρ)

end Cert.ConvE.KValue

end
-- ==== Proof.KernelHost.lean ====
/-
  What the host prepares before the region, read back as functions of the argument arrays.

  Before the region starts, the host gathers the three [E, 128] matrices the row windows read: X0 = h[row], X1 = g[type]
  and CJ = h[col], where a negative index is first wrapped by adding the table's length. These are, operation for operation,
  the gathers the reference performs on the same arguments, so the arrays the region finds are the reference's three
  gathered matrices (changing the float format of X0, X1 and of the dense weights is the identity on extended reals).
  The host also folds the first normalisation into two one-element arrays: the scale s = g * rsqrt (v + eps) and the
  offset b - m * s. Substituting all of this, what the kernel leaves in its result array is the specification's column of
  scores under the folded normalisation of the four scalars.
-/
import proofs.«161276_j62758062129643_2_alg».proof.Proof.KernelBlocks
import proofs.«161276_j62758062129643_2_alg».proof.Proof.Gen.ReferenceIdeal.Read
import Idealize.ShloMosaic.Lib.StableHlo.Run
import Idealize.ShloMosaic.PureOps.Ideal.Laws

set_option maxHeartbeats 2000000

noncomputable section

namespace Cert.ConvE.KHost

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ)

/-- The subject rows the region finds are the reference's first gathered matrix. -/
theorem subject_rows (c : Dev nD) :
    (V m c main_v25 : S131072x128.Idx → EReal)
      = Cert.ReferenceIdeal.Read.val_main_v10 (F := Ideal) (m ((c : Thread nD τ).loc main_arg0)) (m ((c : Thread nD τ).loc main_arg2)) := by
  show StableHlo.after hostOps0 (fun b => m (c, b)) (Proc.devRef .tc main_v25) = _
  unfold hostOps0
  after_results_simp
  rfl

/-- The relation rows the region finds are the reference's second gathered matrix. -/
theorem relation_rows (c : Dev nD) :
    (V m c main_v26 : S131072x128.Idx → EReal)
      = Cert.ReferenceIdeal.Read.val_main_v17 (F := Ideal) (m ((c : Thread nD τ).loc main_arg1)) (m ((c : Thread nD τ).loc main_arg3)) := by
  show StableHlo.after hostOps0 (fun b => m (c, b)) (Proc.devRef .tc main_v26) = _
  unfold hostOps0
  after_results_simp
  rfl

/-- The object rows the region finds are the reference's third gathered matrix. -/
theorem object_rows (c : Dev nD) :
    (V m c main_v24 : S131072x128.Idx → EReal)
      = Cert.ReferenceIdeal.Read.val_main_v24 (F := Ideal) (m ((c : Thread nD τ).loc main_arg0)) (m ((c : Thread nD τ).loc main_arg2)) := by
  show StableHlo.after hostOps0 (fun b => m (c, b)) (Proc.devRef .tc main_v24) = _
  unfold hostOps0
  after_results_simp
  rfl

/-- The dense weights the region finds are the argument's: a change of float format is the identity. -/
theorem dense_weights (c : Dev nD) :
    (V m c main_v27 : S2048x128.Idx → EReal) = m ((c : Thread nD τ).loc main_arg6) := by
  show StableHlo.after hostOps0 (fun b => m (c, b)) (Proc.devRef .tc main_v27) = _
  unfold hostOps0
  after_results_simp
  rfl

/-- The one-element scale array holds g * rsqrt (v + eps). -/
theorem scale_read (c : Dev nD) :
    (V m c main_v31 : S1.Idx → EReal) (ix1 0)
      = scale (m ((c : Thread nD τ).loc main_arg8) (ix1 0)) (m ((c : Thread nD τ).loc main_arg11) (ix1 0)) := by
  show StableHlo.after hostOps0 (fun b => m (c, b)) (Proc.devRef .tc main_v31) (ix1 0) = _
  unfold hostOps0
  after_results_simp
  rfl

/-- The offset of the folded normalisation: shift minus mean times scale. -/
def offset (g b mm v : EReal) : EReal := b - mm * scale g v

/-- The one-element offset array holds b - m * (g * rsqrt (v + eps)). -/
theorem offset_read (c : Dev nD) :
    (V m c main_v33 : S1.Idx → EReal) (ix1 0)
      = offset (m ((c : Thread nD τ).loc main_arg8) (ix1 0)) (m ((c : Thread nD τ).loc main_arg9) (ix1 0))
          (m ((c : Thread nD τ).loc main_arg10) (ix1 0)) (m ((c : Thread nD τ).loc main_arg11) (ix1 0)) := by
  show StableHlo.after hostOps0 (fun b => m (c, b)) (Proc.devRef .tc main_v33) (ix1 0) = _
  unfold hostOps0
  after_results_simp
  rfl

/-- What the kernel leaves in its result array, over the argument arrays: the specification's scores of the reference's
    three gathered matrices under the folded normalisation of the four scalars. -/
theorem result_of_args (c : Dev nD) :
    Cert.ConvE.KValue.G m c
      = Cert.ConvE.out
          (foldedNorm (m ((c : Thread nD τ).loc main_arg8) (ix1 0)) (m ((c : Thread nD τ).loc main_arg9) (ix1 0))
            (m ((c : Thread nD τ).loc main_arg10) (ix1 0)) (m ((c : Thread nD τ).loc main_arg11) (ix1 0)))
          (Cert.ReferenceIdeal.Read.val_main_v10 (F := Ideal) (m ((c : Thread nD τ).loc main_arg0)) (m ((c : Thread nD τ).loc main_arg2)))
          (Cert.ReferenceIdeal.Read.val_main_v17 (F := Ideal) (m ((c : Thread nD τ).loc main_arg1)) (m ((c : Thread nD τ).loc main_arg3)))
          (Cert.ReferenceIdeal.Read.val_main_v24 (F := Ideal) (m ((c : Thread nD τ).loc main_arg0)) (m ((c : Thread nD τ).loc main_arg2)))
          (m ((c : Thread nD τ).loc main_arg4)) (m ((c : Thread nD τ).loc main_arg5)) (m ((c : Thread nD τ).loc main_arg6))
          (m ((c : Thread nD τ).loc main_arg7)) (m ((c : Thread nD τ).loc main_arg12)) (m ((c : Thread nD τ).loc main_arg13))
          (m ((c : Thread nD τ).loc main_arg14)) (m ((c : Thread nD τ).loc main_arg15)) := by
  unfold Cert.ConvE.KValue.G
  rw [subject_rows, relation_rows, object_rows, dense_weights, scale_read, offset_read,
    V_main_arg4, V_main_arg5, V_main_arg7, V_main_arg12, V_main_arg13, V_main_arg14, V_main_arg15]
  rfl

end Cert.ConvE.KHost

end
-- ==== Proof.lean ====
/-
  The certificate's claim.

  The kernel scores 131072 edges. For edge e it reads the subject row h[row e], the relation row g[type e] and the
  object row h[col e]; a scalar normalisation is applied to every entry of the first two rows, sixteen channels mix the
  two normalised rows and pass through a maximum with zero, the 2048 features go through a dense layer, a second
  normalisation per output lane and a second maximum, and the score is the inner product with the object row.

  The two programs arrange the first normalisation differently. The kernel's host computes the scale
  s = g * rsqrt (v + eps) and the offset b - m * s once, and the block applies x * s + (b - m * s); the reference
  applies (x - m) * s + b. With s, m and b real numbers the two agree at EVERY extended real x (for real x by
  distributivity; at an infinite x both sides are that infinity times the sign of s, or b when s = 0), so the gathered
  rows need no finiteness. s is real as soon as g and v are real and v + eps > 0, which the precondition gives:
  the four scalars are finite and the variance is non-negative. Everything else is the same computation on both sides:
  the same three gathers, the same sums, the same second normalisation.

  The kernel side: the region's 64 blocks of 2048 rows each hold the specification's scores of their rows, and they
  cover the result array; the arrays the region finds are the reference's three gathered matrices, the arguments, and
  the folded scale and offset. The reference side: its run, read one operation at a time, is the specification under the
  textbook normalisation. The three frames are the generated ones (the reference's is its run with the result dropped),
  and the idealization rewrote no operation.
-/
import proofs.«161276_j62758062129643_2_alg».proof.Defs
import proofs.«161276_j62758062129643_2_alg».proof.Proof.Gen.Kernel
import proofs.«161276_j62758062129643_2_alg».proof.Proof.Gen.Kernel.Skeleton
import proofs.«161276_j62758062129643_2_alg».proof.Proof.Gen.Kernel.Launch
import proofs.«161276_j62758062129643_2_alg».proof.Proof.Gen.Kernel.Points
import proofs.«161276_j62758062129643_2_alg».proof.Proof.Gen.Kernel.Frame
import proofs.«161276_j62758062129643_2_alg».proof.Proof.Gen.KernelIdeal
import proofs.«161276_j62758062129643_2_alg».proof.Proof.Gen.KernelIdeal.Skeleton
import proofs.«161276_j62758062129643_2_alg».proof.Proof.Gen.KernelIdeal.Launch
import proofs.«161276_j62758062129643_2_alg».proof.Proof.Gen.KernelIdeal.Points
import proofs.«161276_j62758062129643_2_alg».proof.Proof.Gen.KernelIdeal.Frame
import proofs.«161276_j62758062129643_2_alg».proof.Proof.Gen.ReferenceIdeal
import proofs.«161276_j62758062129643_2_alg».proof.Proof.Gen.Pre_finite_inputs
import proofs.«161276_j62758062129643_2_alg».proof.Proof.Gen.KernelIdeal.Value
import proofs.«161276_j62758062129643_2_alg».proof.Proof.Gen.ReferenceIdeal.Run
import proofs.«161276_j62758062129643_2_alg».proof.Proof.Gen.ReferenceIdeal.Read
import proofs.«161276_j62758062129643_2_alg».proof.Proof.Spec
import proofs.«161276_j62758062129643_2_alg».proof.Proof.PreFacts
import proofs.«161276_j62758062129643_2_alg».proof.Proof.RefValue
import proofs.«161276_j62758062129643_2_alg».proof.Proof.KernelBlocks
import proofs.«161276_j62758062129643_2_alg».proof.Proof.KernelHost
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the sixteen arguments both idealized programs end with the same column of scores:
    the kernel's is the specification under the folded normalisation, the reference's under the textbook one, and the
    precondition makes the four scalars real with a non-negative variance, where the two normalisations are one function. -/
theorem algebraic : Cert.algebraic_KernelIdeal_ReferenceIdeal := by
  intro m ρ m' ρ' hpre hagree
  refine ⟨fun c => Cert.ConvE.KValue.G m c, Cert.ConvE.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨g, b, mm, v, hg, hb, hm, hv, h0⟩ := Cert.ConvE.Pre.bn1_real _ _ _ _ _ _ _ _ _ _ _ _ _ _ _ _ (hpre c)
  obtain ⟨e0, e1, e2, e3, e4, e5, e6, e7, e8, e9, e10, e11, e12, e13, e14, e15⟩ := hagree c
  show Cert.ReferenceIdeal.Value.res_main_v86 m' c = Cert.ConvE.KValue.G m c
  rw [Cert.ReferenceIdeal.Read.val_main_v86_eq, Cert.ConvE.Ref.ref_is_spec, Cert.ConvE.KHost.result_of_args,
    e0, e1, e2, e3, e4, e5, e6, e7, e8, e9, e10, e11, e12, e13, e14, e15, hg, hb, hm, hv, Cert.ConvE.foldedNorm_eq_plainNorm g b mm v h0]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
